-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S1x1 : Shape := ⟨2, ![1, 1]⟩
abbrev S1x1x4096 : Shape := ⟨3, ![1, 1, 4096]⟩
abbrev S4096x8192 : Shape := ⟨2, ![4096, 8192]⟩
abbrev S4096 : Shape := ⟨1, ![4096]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1x1x4096 : S_.BroadcastsInDim S1x1x4096 (![] : Fin 0 → Fin S1x1x4096.rank)
  reducesTo_S1x1x4096_S_d0_1_2 : S1x1x4096.ReducesTo [0, 1, 2] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S16384 .f32) (main_arg12 : FVec F S1x4096 .f32) (main_arg13 : FVec F S1 .f32) (main_v48 : IVec S_ 1) (main_v49 : FVec F S16384x4096 .f32) (main_v50 : FVec F S16384x4096 .f32) : IVec S_ 1 :=
  let main_v51 : IVec S16384x4096 1 := cmpf .olt main_v49 main_v50
  let main_c_19 : IVec S_ 1 := constantI S_ 1 1#1
  let main_v52 : IVec S_ 1 := (fun x v => Host.reduce IntOp.andi x v reducesTo_S16384x4096_S_d0_1 h_S_) main_v51 main_c_19
  let main_v53 : IVec S_ 1 := andi main_v48 main_v52
  let main_v54 : FVec F S16384 .f32 := Host.absf main_arg11
  let main_cst_20 : FVec F S_ .f32 := constant S_ .f32 0x7F800000#32
  let main_v55 : FVec F S16384 .f32 := broadcastInDim S16384 ![] bcast_S_S16384 main_cst_20
  let main_v56 : IVec S16384 1 := cmpf .olt main_v54 main_v55
  let main_c_21 : IVec S_ 1 := constantI S_ 1 1#1
  let main_v57 : IVec S_ 1 := (fun x v => Host.reduce IntOp.andi x v reducesTo_S16384_S_d0 h_S_) main_v56 main_c_21
  let main_v58 : IVec S_ 1 := andi main_v53 main_v57
  let main_v59 : FVec F S1x4096 .f32 := Host.absf main_arg12
  let main_cst_22 : FVec F S_ .f32 := constant S_ .f32 0x7F800000#32
  let main_v60 : FVec F S1x4096 .f32 := broadcastInDim S1x4096 ![] bcast_S_S1x4096 main_cst_22
  let main_v61 : IVec S1x4096 1 := cmpf .olt main_v59 main_v60
  let main_c_23 : IVec S_ 1 := constantI S_ 1 1#1
  let main_v62 : IVec S_ 1 := (fun x v => Host.reduce IntOp.andi x v reducesTo_S1x4096_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S4096 .f32) (main_arg8 : FVec F S16384x4096 .f32) (main_arg9 : FVec F S16384 .f32) (main_arg10 : FVec F S16384x4096 .f32) (main_arg11 : FVec F S16384 .f32) (main_arg12 : FVec F S1x4096 .f32) (main_arg13 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S16384 .f32 := Host.absf main_arg9
  let main_cst_16 : FVec F S_ .f32 := constant S_ .f32 0x7F800000#32
  let main_v45 : FVec F S16384 .f32 := broadcastInDim S16384 ![] bcast_S_S16384 main_cst_16
  let main_v46 : IVec S16384 1 := cmpf .olt main_v44 main_v45
  let main_c_17 : IVec S_ 1 := constantI S_ 1 1#1
  let main_v47 : IVec S_ 1 := (fun x v => Host.reduce IntOp.andi x v reducesTo_S16384_S_d0 h_S_) main_v46 main_c_17
  let main_v48 : IVec S_ 1 := andi main_v43 main_v47
  let main_v49 : FVec F S16384x4096 .f32 := Host.absf main_arg10
  let main_cst_18 : FVec F S_ .f32 := constant S_ .f32 0x7F800000#32
  let main_v50 : FVec F S16384x4096 .f32 := broadcastInDim S16384x4096 ![] bcast_S_S16384x4096 main_cst_18
  fn_part3 (F := F) main_arg11 main_arg12 main_arg13 main_v48 main_v49 main_v50

def fn_part1 {F : FTy → Type} [FloatOps F] (main_arg4 : FVec F S1x1 .f32) (main_arg5 : FVec F S1x1 .f32) (main_arg6 : FVec F S4096x8192 .f32) (main_arg7 : FVec F S4096 .f32) (main_arg8 : FVec F S16384x4096 .f32) (main_arg9 : FVec F S16384 .f32) (main_arg10 : FVec F S16384x4096 .f32) (main_arg11 : FVec F S16384 .f32) (main_arg12 : FVec F S1x4096 .f32) (main_arg13 : FVec F S1 .f32) (main_v13 : IVec S_ 1) (main_v16 : IVec S1x1x4096 1) : IVec S_ 1 :=
  let main_c_5 : IVec S_ 1 := constantI S_ 1 1#1
  let main_v17 : IVec S_ 1 := (fun x v => Host.reduce IntOp.andi x v reducesTo_S1x1x4096_S_d0_1_2 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1x8192 .f32) (main_arg1 : FVec F S1x1 .f32) (main_arg2 : FVec F S1x1x4096 .f32) (main_arg3 : FVec F S1x1x4096 .f32) (main_arg4 : FVec F S1x1 .f32) (main_arg5 : FVec F S1x1 .f32) (main_arg6 : FVec F S4096x8192 .f32) (main_arg7 : FVec F S4096 .f32) (main_arg8 : FVec F S16384x4096 .f32) (main_arg9 : FVec F S16384 .f32) (main_arg10 : FVec F S16384x4096 .f32) (main_arg11 : FVec F S16384 .f32) (main_arg12 : FVec F S1x4096 .f32) (main_arg13 : FVec F S1 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1x1x4096 .f32 := Host.absf main_arg2
  let main_cst_2 : FVec F S_ .f32 := constant S_ .f32 0x7F800000#32
  let main_v10 : FVec F S1x1x4096 .f32 := broadcastInDim S1x1x4096 ![] bcast_S_S1x1x4096 main_cst_2
  let main_v11 : IVec S1x1x4096 1 := cmpf .olt main_v9 main_v10
  let main_c_3 : IVec S_ 1 := constantI S_ 1 1#1
  let main_v12 : IVec S_ 1 := (fun x v => Host.reduce IntOp.andi x v reducesTo_S1x1x4096_S_d0_1_2 h_S_) main_v11 main_c_3
  let main_v13 : IVec S_ 1 := andi main_v8 main_v12
  let main_v14 : FVec F S1x1x4096 .f32 := Host.absf main_arg3
  let main_cst_4 : FVec F S_ .f32 := constant S_ .f32 0x7F800000#32
  let main_v15 : FVec F S1x1x4096 .f32 := broadcastInDim S1x1x4096 ![] bcast_S_S1x1x4096 main_cst_4
  let main_v16 : IVec S1x1x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S1x8192 : Shape := ⟨2, ![1, 8192]⟩
abbrev S1x1 : Shape := ⟨2, ![1, 1]⟩
abbrev S1x1x4096 : Shape := ⟨3, ![1, 1, 4096]⟩
abbrev S4096x8192 : Shape := ⟨2, ![4096, 8192]⟩
abbrev S4096 : Shape := ⟨1, ![4096]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S1x16384 : Shape := ⟨2, ![1, 16384]⟩
abbrev S256x8192 : Shape := ⟨2, ![256, 8192]⟩
abbrev S1x256 : Shape := ⟨2, ![1, 256]⟩
abbrev S256x4096 : Shape := ⟨2, ![256, 4096]⟩

abbrev nBuf : Space → Nat
  | .hbm => 28
  | .vmem => 28
  | .smem => 0
  | _ => 0

abbrev bufTy : (tb : Table) → Fin (tcTables nBuf tb) → BufTy
  | .hbm, ⟨0, _⟩ => ⟨S1x8192, .f32⟩
  | .hbm, ⟨1, _⟩ => ⟨S1x1, .f32⟩
  | .hbm, ⟨2, _⟩ => ⟨S1x1x4096, .f32⟩
  | .hbm, ⟨3, _⟩ => ⟨S1x1x4096, .f32⟩
  | .hbm, ⟨4, _⟩ => ⟨S1x1, .f32⟩
  | .hbm, ⟨5, _⟩ => ⟨S1x1, .f32⟩
  | .hbm, ⟨6, _⟩ => ⟨S4096x8192, .f32⟩
  | .hbm, ⟨7, _⟩ => ⟨S4096, .f32⟩
  | .hbm, ⟨8, _⟩ => ⟨S16384x4096, .f32⟩
  | .hbm, ⟨9, _⟩ => ⟨S16384, .f32⟩
  | .hbm, ⟨10, _⟩ => ⟨S16384x4096, .f32⟩
  | .hbm, ⟨11, _⟩ => ⟨S16384, .f32⟩
  | .hbm, ⟨12, _⟩ => ⟨S1x4096, .f32⟩
  | .hbm, ⟨13, _⟩ => ⟨S1, .f32⟩
  | .hbm, ⟨14, _⟩ => ⟨S1x4096, .f32⟩
  | .hbm, ⟨15, _⟩ => ⟨S16384, .f32⟩
  | .hbm, ⟨16, _⟩ => ⟨S1x16384, .f32⟩
  | .hbm, ⟨17, _⟩ => ⟨S1x1, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x16384, .f32⟩
  | .hbm, ⟨22, _⟩ => ⟨S1x4096, .f32⟩
  | .hbm, ⟨23, _⟩ => ⟨S1x4096, .f32⟩
  | .hbm, ⟨24, _⟩ => ⟨S1x1, .f32⟩
  | .hbm, ⟨25, _⟩ => ⟨S1x1, .f32⟩
  | .hbm, ⟨26, _⟩ => ⟨S1x1x4096, .f32⟩
  | .hbm, ⟨27, _⟩ => ⟨S1x1x4096, .f32⟩
  | .local _ .vmem, ⟨0, _⟩ => ⟨S1x8192, .f32⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x16384, .f32⟩
  | .local _ .vmem, ⟨18, _⟩ => ⟨S1x4096, .f32⟩
  | .local _ .vmem, ⟨19, _⟩ => ⟨S1x4096, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | .local _ .vmem, ⟨24, _⟩ => ⟨S1x4096, .f32⟩
  | .local _ .vmem, ⟨25, _⟩ => ⟨S1x4096, .f32⟩
  | .local _ .vmem, ⟨26, _⟩ => ⟨S1x1, .f32⟩
  | .local _ .vmem, ⟨27, _⟩ => ⟨S1x1, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  shapeCasts_S4096_S1x4096 : S4096.ShapeCasts S1x4096
  shapeCasts_S16384_S1x16384 : S16384.ShapeCasts S1x16384
  shapeCasts_S1_S1x1 : S1.ShapeCasts S1x1
  shapeCasts_S1x1x4096_S1x4096 : S1x1x4096.ShapeCasts S1x4096
  inb_S1x8192_S1x8192_0_0 : ∀ a, (![0, 0] : Fin 2 → Nat) a + S1x8192.size a ≤ S1x8192.size a
  h_S1x8192 : 0 < S1x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  slices_S1x16384_o0_0_S1x4096 : S1x16384.Slices ![0, 0] S1x4096
  slices_S1x16384_o0_4096_S1x4096 : S1x16384.Slices ![0, 4096] S1x4096
  slices_S1x16384_o0_8192_S1x4096 : S1x16384.Slices ![0, 8192] S1x4096
  slices_S1x16384_o0_12288_S1x4096 : S1x16384.Slices ![0, 12288] S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S1x4096_S1x1x4096_1_2 : S1x4096.BroadcastsInDim S1x1x4096 (![1, 2] : Fin 2 → Fin S1x1x4096.rank)
  dot_S1x8192_S256x8192_S1x256_1_1_0_0_n_n_wf : DotDims.WF S1x8192 S256x8192 S1x256 [1] [1] [0] [0] [] []
  dot_S1x4096_S256x4096_S1x256_1_1_0_0_n_n_wf : DotDims.WF S1x4096 S256x4096 S1x256 [1] [1] [0] [0] [] []
  dot_S1x4096_S1x4096_S1x1_1_1_0_0_n_n_wf : DotDims.WF S1x4096 S1x4096 S1x1 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S16384x4096.size a
  hwx1_2 : ∀ i : grid1.Coords, EltTy.bits .f32 = 32 ∨ (Rect.block (s := S16384x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x16384.size a
  hwx1_4 : ∀ i : grid1.Coords, EltTy.bits .f32 = 32 ∨ (Rect.block (s := S1x16384) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x16384.size a
  hwx1_5 : ∀ i : grid1.Coords, EltTy.bits .f32 = 32 ∨ (Rect.block (s := S1x16384) S1x256.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x16384.size a ≤ S1x16384.size a
  hwx2_0 : ∀ i : grid2.Coords, EltTy.bits .f32 = 32 ∨ (Rect.block (s := S1x16384) S1x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4096.size a ≤ S1x4096.size a
  hwx2_7 : ∀ i : grid2.Coords, EltTy.bits .f32 = 32 ∨ (Rect.block (s := S1x4096) S1x4096.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x4096.size a ≤ S1x4096.size a
  hwx2_8 : ∀ i : grid2.Coords, EltTy.bits .f32 = 32 ∨ (Rect.block (s := S1x4096) S1x4096.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)

variable [Facts₀]

def dot_S1x8192_S256x8192_S1x256_1_1_0_0_n_n : DotDims S1x8192 S256x8192 S1x256 where
  lhsContracting := [1]
  rhsContracting := [1]
  lhsNonContracting := [0]
  rhsNonContracting := [0]
  lhsBatch := []
  rhsBatch := []
  wf := dot_S1x8192_S256x8192_S1x256_1_1_0_0_n_n_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S1x4096_S1x4096_S1x1_1_1_0_0_n_n : DotDims S1x4096 S1x4096 S1x1 where
  lhsContracting := [1]
  rhsContracting := [1]
  lhsNonContracting := [0]
  rhsNonContracting := [0]
  lhsBatch := []
  rhsBatch := []
  wf := dot_S1x4096_S1x4096_S1x1_1_1_0_0_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7) S1x16384.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8_0) S1x4096.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8_1) S1x4096.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8_2) S1x1.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v8_3) S1x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S1x8192 : Shape := ⟨2, ![1, 8192]⟩
abbrev S1x1 : Shape := ⟨2, ![1, 1]⟩
abbrev S1x1x4096 : Shape := ⟨3, ![1, 1, 4096]⟩
abbrev S4096x8192 : Shape := ⟨2, ![4096, 8192]⟩
abbrev S4096 : Shape := ⟨1, ![4096]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S8192x4096 : Shape := ⟨2, ![8192, 4096]⟩
abbrev S_ : Shape := ⟨0, ![]⟩
abbrev S4096x16384 : Shape := ⟨2, ![4096, 16384]⟩
abbrev S1x16384 : Shape := ⟨2, ![1, 16384]⟩
abbrev S4096x1 : Shape := ⟨2, ![4096, 1]⟩

abbrev nBuf : Space → Nat
  | .hbm => 92
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x1, .f32⟩
  | .hbm, ⟨2, _⟩ => ⟨S1x1x4096, .f32⟩
  | .hbm, ⟨3, _⟩ => ⟨S1x1x4096, .f32⟩
  | .hbm, ⟨4, _⟩ => ⟨S1x1, .f32⟩
  | .hbm, ⟨5, _⟩ => ⟨S1x1, .f32⟩
  | .hbm, ⟨6, _⟩ => ⟨S4096x8192, .f32⟩
  | .hbm, ⟨7, _⟩ => ⟨S4096, .f32⟩
  | .hbm, ⟨8, _⟩ => ⟨S16384x4096, .f32⟩
  | .hbm, ⟨9, _⟩ => ⟨S16384, .f32⟩
  | .hbm, ⟨10, _⟩ => ⟨S16384x4096, .f32⟩
  | .hbm, ⟨11, _⟩ => ⟨S16384, .f32⟩
  | .hbm, ⟨12, _⟩ => ⟨S1x4096, .f32⟩
  | .hbm, ⟨13, _⟩ => ⟨S1, .f32⟩
  | .hbm, ⟨14, _⟩ => ⟨S8192x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S_, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S4096x16384, .f32⟩
  | .hbm, ⟨24, _⟩ => ⟨S1x16384, .f32⟩
  | .hbm, ⟨25, _⟩ => ⟨S1x16384, .f32⟩
  | .hbm, ⟨26, _⟩ => ⟨S1x16384, .f32⟩
  | .hbm, ⟨27, _⟩ => ⟨S4096x16384, .f32⟩
  | .hbm, ⟨28, _⟩ => ⟨S1x16384, .f32⟩
  | .hbm, ⟨29, _⟩ => ⟨S1x16384, .f32⟩
  | .hbm, ⟨30, _⟩ => ⟨S1x16384, .f32⟩
  | .hbm, ⟨31, _⟩ => ⟨S1x16384, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S_, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S4096x1, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S_, .f32⟩
  | .hbm, ⟨73, _⟩ => ⟨S1x1, .f32⟩
  | .hbm, ⟨74, _⟩ => ⟨S1x1, .f32⟩
  | .hbm, ⟨75, _⟩ => ⟨S_, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S1x1, .f32⟩
  | .hbm, ⟨82, _⟩ => ⟨S1x1, .f32⟩
  | .hbm, ⟨83, _⟩ => ⟨S1x1, .f32⟩
  | .hbm, ⟨84, _⟩ => ⟨S1x1, .f32⟩
  | .hbm, ⟨85, _⟩ => ⟨S_, .f32⟩
  | .hbm, ⟨86, _⟩ => ⟨S1x1, .f32⟩
  | .hbm, ⟨87, _⟩ => ⟨S1x1, .f32⟩
  | .hbm, ⟨88, _⟩ => ⟨S1x1, .f32⟩
  | .hbm, ⟨89, _⟩ => ⟨S1x1, .f32⟩
  | .hbm, ⟨90, _⟩ => ⟨S1x1x4096, .f32⟩
  | .hbm, ⟨91, _⟩ => ⟨S1x1x4096, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  transposes_S4096x8192_S8192x4096_1_0 : S4096x8192.Transposes [1, 0] S8192x4096
  bcast_S4096_S1x4096_1 : S4096.BroadcastsInDim S1x4096 (![1] : Fin 1 → Fin S1x4096.rank)
  bcast_S_S1x4096 : S_.BroadcastsInDim S1x4096 (![] : Fin 0 → Fin S1x4096.rank)
  shapeCasts_S1x1x4096_S1x4096 : S1x1x4096.ShapeCasts S1x4096
  transposes_S16384x4096_S4096x16384_1_0 : S16384x4096.Transposes [1, 0] S4096x16384
  bcast_S16384_S1x16384_1 : S16384.BroadcastsInDim S1x16384 (![1] : Fin 1 → Fin S1x16384.rank)
  slices_S1x16384_S1x4096_0_0 : S1x16384.Slices ![0, 0] S1x4096
  slices_S1x16384_S1x4096_0_4096 : S1x16384.Slices ![0, 4096] S1x4096
  slices_S1x16384_S1x4096_0_8192 : S1x16384.Slices ![0, 8192] S1x4096
  slices_S1x16384_S1x4096_0_12288 : S1x16384.Slices ![0, 12288] S1x4096
  transposes_S1x4096_S4096x1_1_0 : S1x4096.Transposes [1, 0] S4096x1
  bcast_S1_S1x1_1 : S1.BroadcastsInDim S1x1 (![1] : Fin 1 → Fin S1x1.rank)
  bcast_S_S1x1 : S_.BroadcastsInDim S1x1 (![] : Fin 0 → Fin S1x1.rank)
  bcast_S1x4096_S1x1x4096_1_2 : S1x4096.BroadcastsInDim S1x1x4096 (![1, 2] : Fin 2 → Fin S1x1x4096.rank)
  dot_S1x8192_S8192x4096_S1x4096_1_0_0_1_n_n_wf : DotDims.WF S1x8192 S8192x4096 S1x4096 [1] [0] [0] [1] [] []
  dot_S1x4096_S4096x16384_S1x16384_1_0_0_1_n_n_wf : DotDims.WF S1x4096 S4096x16384 S1x16384 [1] [0] [0] [1] [] []
  dot_S1x4096_S4096x1_S1x1_1_0_0_1_n_n_wf : DotDims.WF S1x4096 S4096x1 S1x1 [1] [0] [0] [1] [] []

variable [Facts₀]

def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf
def dot_S1x4096_S4096x16384_S1x16384_1_0_0_1_n_n : DotDims S1x4096 S4096x16384 S1x16384 where
  lhsContracting := [1]
  rhsContracting := [0]
  lhsNonContracting := [0]
  rhsNonContracting := [1]
  lhsBatch := []
  rhsBatch := []
  wf := dot_S1x4096_S4096x16384_S1x16384_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

class Facts : Prop extends Facts₀ where

variable [Facts]
-- ==== Proof.KernelEnds.lean ====
/-
  Where the kernel program's buffers end.

  The program is three kernel launches between two stretches of host operations. Its run is a walk through five
  segments, and the contents of the core's buffers at each boundary are a fold from the launch memory: a host stretch
  applies its operations, a launch overwrites the arrays its windows write back and leaves every other buffer alone.
  The last boundary's contents are what every buffer that outlives the launches holds when the program returns.
  This module states exactly that: every weakly fair execution terminates without a fault, and each such buffer
  ends at the last boundary's contents.
-/
import proofs.«175204_j88622355185707_2_alg».proof.Proof.Gen.KernelIdeal.Frame

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped to
    a launch ends holding the last boundary's contents. -/
theorem run_ends : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Ends

end
-- ==== Proof.CellSpec.lean ====
/-
  The mathematics both programs compute, as functions of arrays over the extended reals.

  One step of a recurrent cell of width 4096 on an input row of 8192 entries, followed by a scalar gate:
    z      = max (x · W1ᵀ + b1, 0)                                   a row of 4096 entries
    g      = z · W_ihᵀ + h · W_hhᵀ + (b_ih + b_hh)                    a row of 4 · 4096 entries, quarters i, f, g, o
    c'     = σ(g_f) · c + σ(g_i) · tanh(g_g)
    h'     = σ(g_o) · tanh(c')
    a      = u · a_pre + (1 − u) · σ(h' · W3ᵀ + b3)
    y      = a · u + (1 − a) · y_pre
  where σ(t) = 1 / (1 + e^(−t)). Every sum is a finite sum over the shared axis, every array entry an extended
  real; the two float constants 0 and 1 are kept as the binary words the programs spell.
-/
import Idealize.ShloMosaic.PureOps.Ideal
import Idealize.ShloMosaic.PureOps.Ideal.Laws
import Idealize.ShloMosaic.Lib.ValueIdx

noncomputable section

open scoped BigOperators

namespace Cert.Cell

open Idealize.ShloMosaic Idealize.ShloMosaic.ValueIdx

/-- An array of extended reals of a given shape. -/
abbrev Arr (s : Shape) : Type := FVec Ideal s .f32

abbrev SX : Shape := ⟨2, ![1, 8192]⟩
abbrev SH : Shape := ⟨2, ![1, 4096]⟩
abbrev SG : Shape := ⟨2, ![1, 16384]⟩
abbrev SW1 : Shape := ⟨2, ![4096, 8192]⟩
abbrev SWg : Shape := ⟨2, ![16384, 4096]⟩
abbrev S11 : Shape := ⟨2, ![1, 1]⟩
abbrev V4096 : Shape := ⟨1, ![4096]⟩
abbrev V16384 : Shape := ⟨1, ![16384]⟩
abbrev V1 : Shape := ⟨1, ![1]⟩
abbrev S114096 : Shape := ⟨3, ![1, 1, 4096]⟩

/-- The row coordinate of a rank-2 index, as a number below the first extent. -/
abbrev r0 {a b : Nat} (i : (⟨2, ![a, b]⟩ : Shape).Idx) : Fin a := ⟨(i 0).val, idx2_lt0 i⟩
/-- The column coordinate of a rank-2 index, as a number below the second extent. -/
abbrev r1 {a b : Nat} (i : (⟨2, ![a, b]⟩ : Shape).Idx) : Fin b := ⟨(i 1).val, idx2_lt1 i⟩

/-- The float zero and one, as the words both programs spell. -/
abbrev zeroW : EReal := Ideal.ofBits .f32 0x00000000#32
abbrev oneW : EReal := Ideal.ofBits .f32 0x3F800000#32

/-- The rectified fully connected layer: entry j of the row is max (Σ_k x_k · w(j, k) + b_j, 0). -/
def hidden (x : Arr SX) (w : Arr SW1) (b : Arr SH) : Arr SH :=
  fun i => max ((∑ k : Fin 8192, x (ix2 (r0 i) k) * w (ix2 (r1 i) k)) + b i) zeroW

/-- The four gates' pre-activations in one row: entry j is Σ_k z_k · wi(j, k) + Σ_k h_k · wh(j, k) + bs_j. -/
def gates (z h : Arr SH) (wi wh : Arr SWg) (bs : Arr SG) : Arr SG :=
  fun i => ((∑ k : Fin 4096, z (ix2 (r0 i) k) * wi (ix2 (r1 i) k))
      + (∑ k : Fin 4096, h (ix2 (r0 i) k) * wh (ix2 (r1 i) k))) + bs i

/-- A stretch of 4096 consecutive entries of the gates' row, starting at column `off`. -/
def part (off : Nat) (hoff : off + 4096 ≤ 16384) (g : Arr SG) : Arr SH :=
  fun i => g (ix2 (r0 i) (⟨off + (i 1).val, by have := idx2_lt1 i; omega⟩ : Fin 16384))

/-- The new cell state: σ(f) · c + σ(i) · tanh(g), the quarters in the order i, f, g, o. -/
def cellNew (g : Arr SG) (c : Arr SH) : Arr SH :=
  fun i => Ideal.logistic (part 4096 (by norm_num) g i) * c i
    + Ideal.logistic (part 0 (by norm_num) g i) * Ideal.tanh (part 8192 (by norm_num) g i)

/-- The new hidden state: σ(o) · tanh(c'). -/
def hidNew (g : Arr SG) (c : Arr SH) : Arr SH :=
  fun i => Ideal.logistic (part 12288 (by norm_num) g i) * Ideal.tanh (cellNew g c i)

/-- The scalar gate before blending: σ(Σ_k h_k · w3_k + b3). -/
def headGate (h : Arr SH) (w3 : Arr SH) (b3 : Arr S11) : Arr S11 :=
  fun i => Ideal.logistic ((∑ k : Fin 4096, h (ix2 (r0 i) k) * w3 (ix2 (r1 i) k)) + b3 i)

/-- The blended gate: u · a_pre + (1 − u) · a_lin. -/
def blend (u apre alin : Arr S11) : Arr S11 :=
  fun i => u i * apre i + (oneW - u i) * alin i

/-- The output: a · u + (1 − a) · y_pre. -/
def outY (a u ypre : Arr S11) : Arr S11 :=
  fun i => a i * u i + (oneW - a i) * ypre i

/-! ## The arguments as the rows the layers read -/

/-- A vector of n entries as a row. -/
def rowOf {n : Nat} (v : Arr ⟨1, ![n]⟩) : Arr ⟨2, ![1, n]⟩ := fun i => v (ix1 (r1 i))
/-- A [1, 1, 4096] state as a row. -/
def rowOf3 (v : Arr S114096) : Arr SH := fun i => v (ix3 (0 : Fin 1) (0 : Fin 1) (r1 i))
/-- A row as a [1, 1, 4096] state. -/
def stateOf (v : Arr SH) : Arr S114096 :=
  fun i => v (ix2 (0 : Fin 1) (⟨(i 2).val, (i 2).isLt⟩ : Fin 4096))

/-! ## The four results as functions of the fourteen arguments -/

section Results
variable (x : Arr SX) (u : Arr S11) (h0 c0 : Arr S114096) (ypre apre : Arr S11) (w1 : Arr SW1) (b1 : Arr V4096)
  (wi : Arr SWg) (bi : Arr V16384) (wh : Arr SWg) (bh : Arr V16384) (w3 : Arr SH) (b3 : Arr V1)

/-- z. -/
def zRow : Arr SH := hidden x w1 (rowOf b1)
/-- The gates' row, the two biases added to each other first. -/
def gRow : Arr SG := gates (zRow x w1 b1) (rowOf3 h0) wi wh (fun i => rowOf bi i + rowOf bh i)
/-- c' as a row. -/
def cRow : Arr SH := cellNew (gRow x h0 w1 b1 wi bi wh bh) (rowOf3 c0)
/-- h' as a row. -/
def hRow : Arr SH := hidNew (gRow x h0 w1 b1 wi bi wh bh) (rowOf3 c0)
/-- a. -/
def aOut : Arr S11 := blend u apre (headGate (hRow x h0 c0 w1 b1 wi bi wh bh) w3 (rowOf b3))
/-- y. -/
def yOut : Arr S11 := outY (aOut x u h0 c0 apre w1 b1 wi bi wh bh w3 b3) u ypre
/-- h' as the [1, 1, 4096] result. -/
def hOut : Arr S114096 := stateOf (hRow x h0 c0 w1 b1 wi bi wh bh)
/-- c' as the [1, 1, 4096] result. -/
def cOut : Arr S114096 := stateOf (cRow x h0 c0 w1 b1 wi bi wh bh)

end Results

/-! ## The one law that joins the two programs' sums -/

/-- Four extended reals added as ((a + b) + c) + d or as (a + c) + (b + d): the same sum. Addition on the
    extended reals is commutative and associative at the infinities too, so nothing need be finite. -/
theorem add_regroup (a b c d : EReal) : ((a + b) + c) + d = (a + c) + (b + d) := by
  rw [add_assoc (a + b) c d, add_add_add_comm]

/-- The float word of one is the real number one. -/
theorem oneW_eq : oneW = 1 := by
  simp [oneW, Ideal.ofBits, Ideal.ieee, -EReal.coe_mul]; norm_num

/-- The logistic function written out with the word of one: 1 / (1 + e^(−t)). -/
theorem logistic_spelled (t : EReal) : Ideal.div oneW (oneW + Ideal.exp (-t)) = Ideal.logistic t := by
  rw [oneW_eq]; rfl

end Cert.Cell

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.Layer0.lean ====
/-
  The first launch: the rectified fully connected layer, tile by tile.

  The launch walks 16 grid points. At point t it reads the whole input row x, rows 256·t … 256·t + 255 of the
  weight matrix and columns 256·t … 256·t + 255 of the bias row, and writes back columns 256·t … 256·t + 255 of the
  result row: entry (0, 256·t + q) is max (Σ_k x_k · w(256·t + q, k) + b(256·t + q), 0). The 16 tiles of 256 columns
  cover the 4096 columns, so the result row ends as the layer `Cell.hidden` of the three arrays the launch found.
-/
import proofs.«175204_j88622355185707_2_alg».proof.Proof.Gen.KernelIdeal.Frame
import proofs.«175204_j88622355185707_2_alg».proof.Proof.CellSpec
import proofs.«175204_j88622355185707_2_alg».proof.Proof.LibDotT
import Idealize.ShloMosaic.Lib.Pipeline.Value
import Idealize.ShloMosaic.Lib.ValueIdx

set_option maxRecDepth 16384

noncomputable section

open scoped BigOperators

namespace Cert.Cell.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's arithmetic at entry (p, q) of a tile: the product with the transposed weight tile is a sum over the
    shared axis, the bias is added and the result rectified. -/
theorem pay_apply (x0 : Vec Ideal S1x8192 .f32) (x1 : Vec Ideal S256x8192 .f32) (x2 : Vec Ideal S1x256 .f32)
    (p : Fin 1) (q : Fin 256) :
    k0_pay1 (F := Ideal) x0 x1 x2 (ix2 p q)
      = max ((∑ k : Fin 8192, x0 (ix2 p k) * x1 (ix2 q k)) + x2 (ix2 p q)) Cell.zeroW := by
  unfold k0_pay1
  rw [maximumf_apply, addf_apply, shapeCast_self, broadcast_apply]
  rw [Cert.LibDotT.matmulT_zero_apply dot_S1x8192_S256x8192_S1x256_1_1_0_0_n_n rfl rfl rfl rfl (fun _ _ => rfl) (fun _ _ => rfl)]
  rfl

/-- One entry of one tile against the layer at the array index the tile's entry lands on. -/
theorem point_eq (x0 : Vec Ideal S1x8192 .f32) (x1 : Vec Ideal S256x8192 .f32) (x2 : Vec Ideal S1x256 .f32)
    (A0 : Cell.Arr Cell.SX) (A1 : Cell.Arr Cell.SW1) (A2 : Cell.Arr Cell.SH)
    (p : Fin 1) (q : Fin 256) (i : Cell.SH.Idx)
    (h0 : ∀ k : Fin 8192, x0 (ix2 p k) = A0 (ix2 (Cell.r0 i) k))
    (h1 : ∀ k : Fin 8192, x1 (ix2 q k) = A1 (ix2 (Cell.r1 i) k))
    (h2 : x2 (ix2 p q) = A2 i) :
    k0_pay1 (F := Ideal) x0 x1 x2 (ix2 p q) = Cell.hidden A0 A1 A2 i := by
  rw [pay_apply]
  unfold Cell.hidden
  rw [h2]
  congr 2
  exact Finset.sum_congr rfl fun k _ => by rw [h0 k, h1 k]

/-- The printed index maps over the grid: the input row is always block (0, 0); the weight tile is block (t, 0); the
    bias and the result are block (0, t). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt Ideal) ((c : Thread nD τ).loc b))

/-- What point t writes back is tile t of the layer of the three arrays as the launch finds them. -/
theorem flushed_eq (c : Dev nD) (t : Fin cfg0.N) :
    (dat0 (F := Ideal) V c).flushed 3 t
      = ((cfg0.win 3).blk t).view.read (Elt Ideal) (Cell.hidden (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S1x8192) hz, View.ld_unit_zero (S := S256x8192) hz, View.ld_unit_zero (S := S1x256) hz]
  obtain ⟨e00, e01, e10, e11, e20, e21, e30, e31⟩ := idx_facts t
  funext j
  obtain ⟨p, q, rfl⟩ : ∃ (p : Fin 1) (q : Fin 256), j = ix2 p q := ⟨j 0, j 1, eq_ix2 j⟩
  have hp : p.val = 0 := by have := p.isLt; omega
  refine point_eq (iblk0 V c 0 t) (iblk0 V c 1 t) (iblk0 V c 2 t) (V c main_arg0) (V c main_arg6) (V c main_v0) p q
    (((cfg0.win 3).blk t).view.emb (ix2 p q)) (fun k => ?_) (fun k => ?_) ?_
  · show V c main_arg0 (((cfg0.win 0).blk t).view.emb (ix2 p k)) = _
    refine congrArg (V c main_arg0) (funext fun a => Fin.ext ?_)
    match a with
    | ⟨0, _⟩ => show win0_0.index t (0 : Fin 2) * 1 + 1 * p.val = win0_3.index t (0 : Fin 2) * 1 + 1 * p.val; omega
    | ⟨1, _⟩ => show win0_0.index t (1 : Fin 2) * 8192 + 1 * k.val = k.val; omega
  · show V c main_arg6 (((cfg0.win 1).blk t).view.emb (ix2 q k)) = _
    refine congrArg (V c main_arg6) (funext fun a => Fin.ext ?_)
    match a with
    | ⟨0, _⟩ => show win0_1.index t (0 : Fin 2) * 256 + 1 * q.val = win0_3.index t (1 : Fin 2) * 256 + 1 * q.val; omega
    | ⟨1, _⟩ => show win0_1.index t (1 : Fin 2) * 8192 + 1 * k.val = k.val; omega
  · show V c main_v0 (((cfg0.win 2).blk t).view.emb (ix2 p q)) = V c main_v0 (((cfg0.win 3).blk t).view.emb (ix2 p q))
    refine congrArg (V c main_v0) (funext fun a => Fin.ext ?_)
    match a with
    | ⟨0, _⟩ => show win0_2.index t (0 : Fin 2) * 1 + 1 * p.val = win0_3.index t (0 : Fin 2) * 1 + 1 * p.val; omega
    | ⟨1, _⟩ => show win0_2.index t (1 : Fin 2) * 256 + 1 * q.val = win0_3.index t (1 : Fin 2) * 256 + 1 * q.val; omega

/-- An index of the result row is in point t's tile iff each coordinate is in the tile's range on its axis. -/
theorem mem_blk (t : Fin cfg0.N) (i : S1x4096.Idx) :
    i ∈ ((cfg0.win 3).blk t).view.set ↔ ∀ a : Fin 2, win0_3.index t a * S1x256.size a ≤ (i a).val
      ∧ (i a).val < win0_3.index t a * S1x256.size a + S1x256.size a := by
  show i ∈ ((View.whole main_v6).slice (win0_3.rect t)).set ↔ _
  rw [View.set_slice_whole, Rect.mem_set_unit]
  exact Iff.rfl

/-- The 16 tiles cover the row: column j is in tile j / 256. -/
theorem cover (i : S1x4096.Idx) :
    ∃ t : Fin cfg0.N, (cfg0.win 3).flush t = true ∧ i ∈ ((cfg0.win 3).blk t).view.set := by
  have hi0 : (i 0).val < 1 := idx2_lt0 i
  have hi1 : (i 1).val < 4096 := idx2_lt1 i
  have hN : cfg0.N = 16 := N_0
  have ht : (i 1).val / 256 < cfg0.N := by rw [hN]; omega
  refine ⟨⟨(i 1).val / 256, ht⟩, flush0_3 _, ?_⟩
  rw [mem_blk]
  obtain ⟨-, -, -, -, -, -, e30, e31⟩ := idx_facts ⟨(i 1).val / 256, ht⟩
  intro a
  match a with
  | ⟨0, _⟩ =>
    show win0_3.index ⟨(i 1).val / 256, ht⟩ (0 : Fin 2) * 1 ≤ (i 0).val
      ∧ (i 0).val < win0_3.index ⟨(i 1).val / 256, ht⟩ (0 : Fin 2) * 1 + 1
    rw [e30]; omega
  | ⟨1, _⟩ =>
    show win0_3.index ⟨(i 1).val / 256, ht⟩ (1 : Fin 2) * 256 ≤ (i 1).val
      ∧ (i 1).val < win0_3.index ⟨(i 1).val / 256, ht⟩ (1 : Fin 2) * 256 + 256
    rw [e31]; show (i 1).val / 256 * 256 ≤ (i 1).val ∧ (i 1).val < (i 1).val / 256 * 256 + 256; omega

/-- The result row after the launch is the layer of the three arrays the launch found. -/
theorem value (c : Dev nD) :
    (dat0 (F := Ideal) V c).arrAt 3 cfg0.N = Cell.hidden (V c main_arg0) (V c main_arg6) (V c main_v0) :=
  (dat0 V c).arrAt_eq_of_cover 3 _ (fun t _ => flushed_eq V c t) cover

end Cert.Cell.Layer0

end
-- ==== Proof.Layer1.lean ====
/-
  The second launch: the four gates' pre-activations, tile by tile.

  The launch walks 64 grid points. At point t it reads the whole rows z and h, rows 256·t … 256·t + 255 of each of the
  two weight matrices and columns 256·t … 256·t + 255 of the bias row, and writes back columns 256·t … 256·t + 255 of
  the result row: entry (0, 256·t + q) is Σ_k z_k · wi(256·t + q, k) + Σ_k h_k · wh(256·t + q, k) + bs(256·t + q).
  The 64 tiles of 256 columns cover the 16384 columns, so the result row ends as `Cell.gates` of the five arrays the
  launch found.
-/
import proofs.«175204_j88622355185707_2_alg».proof.Proof.Gen.KernelIdeal.Frame
import proofs.«175204_j88622355185707_2_alg».proof.Proof.CellSpec
import proofs.«175204_j88622355185707_2_alg».proof.Proof.LibDotT
import Idealize.ShloMosaic.Lib.Pipeline.Value
import Idealize.ShloMosaic.Lib.ValueIdx

set_option maxRecDepth 16384

noncomputable section

open scoped BigOperators

namespace Cert.Cell.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's arithmetic at entry (p, q) of a tile: two products with transposed weight tiles, each a sum over the
    shared axis, added to each other and then to the bias. -/
theorem pay_apply (x0 x1 : Vec Ideal S1x4096 .f32) (x2 x3 : Vec Ideal S256x4096 .f32) (x4 : Vec Ideal S1x256 .f32)
    (p : Fin 1) (q : Fin 256) :
    k1_pay1 (F := Ideal) x0 x1 x2 x3 x4 (ix2 p q)
      = ((∑ k : Fin 4096, x0 (ix2 p k) * x2 (ix2 q k)) + (∑ k : Fin 4096, x1 (ix2 p k) * x3 (ix2 q k))) + x4 (ix2 p q) := by
  unfold k1_pay1
  simp only [shapeCast_self]
  rw [addf_apply, addf_apply]
  rw [Cert.LibDotT.matmulT_zero_apply dot_S1x4096_S256x4096_S1x256_1_1_0_0_n_n rfl rfl rfl rfl (fun _ _ => rfl) (fun _ _ => rfl),
    Cert.LibDotT.matmulT_zero_apply dot_S1x4096_S256x4096_S1x256_1_1_0_0_n_n rfl rfl rfl rfl (fun _ _ => rfl) (fun _ _ => rfl)]
  rfl

/-- One entry of one tile against the gates' row at the array index the tile's entry lands on. -/
theorem point_eq (x0 x1 : Vec Ideal S1x4096 .f32) (x2 x3 : Vec Ideal S256x4096 .f32) (x4 : Vec Ideal S1x256 .f32)
    (A0 A1 : Cell.Arr Cell.SH) (A2 A3 : Cell.Arr Cell.SWg) (A4 : Cell.Arr Cell.SG)
    (p : Fin 1) (q : Fin 256) (i : Cell.SG.Idx)
    (h0 : ∀ k : Fin 4096, x0 (ix2 p k) = A0 (ix2 (Cell.r0 i) k))
    (h1 : ∀ k : Fin 4096, x1 (ix2 p k) = A1 (ix2 (Cell.r0 i) k))
    (h2 : ∀ k : Fin 4096, x2 (ix2 q k) = A2 (ix2 (Cell.r1 i) k))
    (h3 : ∀ k : Fin 4096, x3 (ix2 q k) = A3 (ix2 (Cell.r1 i) k))
    (h4 : x4 (ix2 p q) = A4 i) :
    k1_pay1 (F := Ideal) x0 x1 x2 x3 x4 (ix2 p q) = Cell.gates A0 A1 A2 A3 A4 i := by
  rw [pay_apply]
  unfold Cell.gates
  rw [h4]
  congr 2
  · exact Finset.sum_congr rfl fun k _ => by rw [h0 k, h2 k]
  · exact Finset.sum_congr rfl fun k _ => by rw [h1 k, h3 k]

/-- The printed index maps over the grid: the rows z and h are always block (0, 0); the weight tiles are block (t, 0);
    the bias and the result are block (0, t). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

variable (V : (c : Dev nD) → (b : Ref sig .tc) → Buf (Elt Ideal) ((c : Thread nD τ).loc b))

/-- What point t writes back is tile t of the gates' row of the five arrays as the launch finds them. -/
theorem flushed_eq (c : Dev nD) (t : Fin cfg1.N) :
    (dat1 (F := Ideal) V c).flushed 5 t
      = ((cfg1.win 5).blk t).view.read (Elt Ideal)
          (Cell.gates (V c main_v6) (V c main_v4) (V c main_arg8) (V c main_arg10) (V c main_v2)) := by
  show (cfg1.win 5).cut (grid1.coords t) ((dat1 V c).after 5 t) = _
  rw [after1_5]
  unfold out1_5
  rw [View.canon_unit_zero hz]
  simp only [View.ld_unit_zero (S := S1x4096) hz, View.ld_unit_zero (S := S256x4096) hz, View.ld_unit_zero (S := S1x256) hz]
  obtain ⟨e00, e01, e10, e11, e20, e21, e30, e31, e40, e41, e50, e51⟩ := idx_facts t
  funext j
  obtain ⟨p, q, rfl⟩ : ∃ (p : Fin 1) (q : Fin 256), j = ix2 p q := ⟨j 0, j 1, eq_ix2 j⟩
  have hp : p.val = 0 := by have := p.isLt; omega
  refine point_eq (iblk1 V c 0 t) (iblk1 V c 1 t) (iblk1 V c 2 t) (iblk1 V c 3 t) (iblk1 V c 4 t)
    (V c main_v6) (V c main_v4) (V c main_arg8) (V c main_arg10) (V c main_v2) p q
    (((cfg1.win 5).blk t).view.emb (ix2 p q)) (fun k => ?_) (fun k => ?_) (fun k => ?_) (fun k => ?_) ?_
  · show V c main_v6 (((cfg1.win 0).blk t).view.emb (ix2 p k)) = _
    refine congrArg (V c main_v6) (funext fun a => Fin.ext ?_)
    match a with
    | ⟨0, _⟩ => show win1_0.index t (0 : Fin 2) * 1 + 1 * p.val = win1_5.index t (0 : Fin 2) * 1 + 1 * p.val; omega
    | ⟨1, _⟩ => show win1_0.index t (1 : Fin 2) * 4096 + 1 * k.val = k.val; omega
  · show V c main_v4 (((cfg1.win 1).blk t).view.emb (ix2 p k)) = _
    refine congrArg (V c main_v4) (funext fun a => Fin.ext ?_)
    match a with
    | ⟨0, _⟩ => show win1_1.index t (0 : Fin 2) * 1 + 1 * p.val = win1_5.index t (0 : Fin 2) * 1 + 1 * p.val; omega
    | ⟨1, _⟩ => show win1_1.index t (1 : Fin 2) * 4096 + 1 * k.val = k.val; omega
  · show V c main_arg8 (((cfg1.win 2).blk t).view.emb (ix2 q k)) = _
    refine congrArg (V c main_arg8) (funext fun a => Fin.ext ?_)
    match a with
    | ⟨0, _⟩ => show win1_2.index t (0 : Fin 2) * 256 + 1 * q.val = win1_5.index t (1 : Fin 2) * 256 + 1 * q.val; omega
    | ⟨1, _⟩ => show win1_2.index t (1 : Fin 2) * 4096 + 1 * k.val = k.val; omega
  · show V c main_arg10 (((cfg1.win 3).blk t).view.emb (ix2 q k)) = _
    refine congrArg (V c main_arg10) (funext fun a => Fin.ext ?_)
    match a with
    | ⟨0, _⟩ => show win1_3.index t (0 : Fin 2) * 256 + 1 * q.val = win1_5.index t (1 : Fin 2) * 256 + 1 * q.val; omega
    | ⟨1, _⟩ => show win1_3.index t (1 : Fin 2) * 4096 + 1 * k.val = k.val; omega
  · show V c main_v2 (((cfg1.win 4).blk t).view.emb (ix2 p q)) = V c main_v2 (((cfg1.win 5).blk t).view.emb (ix2 p q))
    refine congrArg (V c main_v2) (funext fun a => Fin.ext ?_)
    match a with
    | ⟨0, _⟩ => show win1_4.index t (0 : Fin 2) * 1 + 1 * p.val = win1_5.index t (0 : Fin 2) * 1 + 1 * p.val; omega
    | ⟨1, _⟩ => show win1_4.index t (1 : Fin 2) * 256 + 1 * q.val = win1_5.index t (1 : Fin 2) * 256 + 1 * q.val; omega

/-- An index of the result row is in point t's tile iff each coordinate is in the tile's range on its axis. -/
theorem mem_blk (t : Fin cfg1.N) (i : S1x16384.Idx) :
    i ∈ ((cfg1.win 5).blk t).view.set ↔ ∀ a : Fin 2, win1_5.index t a * S1x256.size a ≤ (i a).val
      ∧ (i a).val < win1_5.index t a * S1x256.size a + S1x256.size a := by
  show i ∈ ((View.whole main_v7).slice (win1_5.rect t)).set ↔ _
  rw [View.set_slice_whole, Rect.mem_set_unit]
  exact Iff.rfl

/-- The 64 tiles cover the row: column j is in tile j / 256. -/
theorem cover (i : S1x16384.Idx) :
    ∃ t : Fin cfg1.N, (cfg1.win 5).flush t = true ∧ i ∈ ((cfg1.win 5).blk t).view.set := by
  have hi0 : (i 0).val < 1 := idx2_lt0 i
  have hi1 : (i 1).val < 16384 := idx2_lt1 i
  have hN : cfg1.N = 64 := N_1
  have ht : (i 1).val / 256 < cfg1.N := by rw [hN]; omega
  refine ⟨⟨(i 1).val / 256, ht⟩, flush1_5 _, ?_⟩
  rw [mem_blk]
  obtain ⟨-, -, -, -, -, -, -, -, -, -, e50, e51⟩ := idx_facts ⟨(i 1).val / 256, ht⟩
  intro a
  match a with
  | ⟨0, _⟩ =>
    show win1_5.index ⟨(i 1).val / 256, ht⟩ (0 : Fin 2) * 1 ≤ (i 0).val
      ∧ (i 0).val < win1_5.index ⟨(i 1).val / 256, ht⟩ (0 : Fin 2) * 1 + 1
    rw [e50]; omega
  | ⟨1, _⟩ =>
    show win1_5.index ⟨(i 1).val / 256, ht⟩ (1 : Fin 2) * 256 ≤ (i 1).val
      ∧ (i 1).val < win1_5.index ⟨(i 1).val / 256, ht⟩ (1 : Fin 2) * 256 + 256
    rw [e51]; show (i 1).val / 256 * 256 ≤ (i 1).val ∧ (i 1).val < (i 1).val / 256 * 256 + 256; omega

/-- The result row after the launch is the gates' row of the five arrays the launch found. -/
theorem value (c : Dev nD) :
    (dat1 (F := Ideal) V c).arrAt 5 cfg1.N
      = Cell.gates (V c main_v6) (V c main_v4) (V c main_arg8) (V c main_arg10) (V c main_v2) :=
  (dat1 V c).arrAt_eq_of_cover 5 _ (fun t _ => flushed_eq V c t) cover

end Cert.Cell.Layer1

end
-- ==== Proof.Layer2.lean ====
/-
  The third launch: the cell's nonlinearities and the scalar gate, in one grid point.

  Every window of this launch is one block, the whole array. From the gates' row g and the old cell state c the body
  computes c' = σ(g_f) · c + σ(g_i) · tanh(g_g) and h' = σ(g_o) · tanh(c'), the quarters of g read as stretches of 4096
  columns at offsets 0, 4096, 8192 and 12288; then the scalar a = u · a_pre + (1 − u) · σ(Σ_k h'_k · w3_k + b3) and
  y = a · u + (1 − a) · y_pre. Each of the four result arrays ends as the corresponding function of `Cell` of the
  arrays the launch found.
-/
import proofs.«175204_j88622355185707_2_alg».proof.Proof.Gen.KernelIdeal.Frame
import proofs.«175204_j88622355185707_2_alg».proof.Proof.CellSpec
import proofs.«175204_j88622355185707_2_alg».proof.Proof.LibDotT
import Idealize.ShloMosaic.Lib.Pipeline.Value
import Idealize.ShloMosaic.Lib.ValueIdx

set_option maxRecDepth 16384

noncomputable section

open scoped BigOperators

namespace Cert.Cell.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's arithmetic as whole-array functions -/

/-- A unit-stride slice of 4096 columns of the gates' row at a column offset is that stretch of the row. -/
theorem slice_eq (off : Nat) (hoff : off + 4096 ≤ 16384) (x : Vec Ideal S1x16384 .f32)
    (h : S1x16384.Slices ![0, off] S1x4096) (i : S1x4096.Idx) :
    extractStridedSlice S1x4096 ![0, off] x h i = Cell.part off hoff x i := by
  unfold Cell.part
  refine extractStridedSlice_apply _ x h i _ fun a => ?_
  match a with
  | ⟨0, _⟩ => show (i 0).val = 0 + (i 0).val; omega
  | ⟨1, _⟩ => rfl

/-- The new cell state. -/
theorem pay3_eq (x0 : Vec Ideal S1x16384 .f32) (x1 : Vec Ideal S1x4096 .f32) :
    k2_pay3 (F := Ideal) x0 x1 = Cell.cellNew x0 x1 := by
  funext i
  unfold k2_pay3 k2_pay2 Cell.cellNew
  simp only [shapeCast_self]
  show Ideal.logistic (extractStridedSlice S1x4096 ![0, 4096] x0 _ i) * x1 i
      + Ideal.logistic (extractStridedSlice S1x4096 ![0, 0] x0 _ i) * Ideal.tanh (extractStridedSlice S1x4096 ![0, 8192] x0 _ i) = _
  rw [slice_eq 4096 (by norm_num), slice_eq 0 (by norm_num), slice_eq 8192 (by norm_num)]

/-- The new hidden state. -/
theorem pay4_eq (x0 : Vec Ideal S1x16384 .f32) (x1 : Vec Ideal S1x4096 .f32) :
    k2_pay4 (F := Ideal) x0 x1 = Cell.hidNew x0 x1 := by
  funext i
  unfold k2_pay4 k2_pay2 Cell.hidNew
  simp only [shapeCast_self]
  show Ideal.logistic (extractStridedSlice S1x4096 ![0, 12288] x0 _ i) * Ideal.tanh (k2_pay3 x0 x1 i) = _
  rw [slice_eq 12288 (by norm_num), pay3_eq]

/-- The blended scalar gate. -/
theorem pay5_eq (x0 : Vec Ideal S1x16384 .f32) (x1 x2 : Vec Ideal S1x4096 .f32) (x3 x4 x6 : Vec Ideal S1x1 .f32) :
    k2_pay5 (F := Ideal) x0 x1 x2 x3 x4 x6 = Cell.blend x4 x6 (Cell.headGate (Cell.hidNew x0 x1) x2 x3) := by
  funext i
  obtain ⟨p, q, rfl⟩ : ∃ (p : Fin 1) (q : Fin 1), i = ix2 p q := ⟨i 0, i 1, eq_ix2 i⟩
  unfold k2_pay5 Cell.blend Cell.headGate
  simp only [shapeCast_self]
  rw [addf_apply, mulf_apply, mulf_apply, subf_apply, broadcast_apply]
  show x4 (ix2 p q) * x6 (ix2 p q) + (Cell.oneW - x4 (ix2 p q)) * Ideal.logistic
      (matmul dot_S1x4096_S1x4096_S1x1_1_1_0_0_n_n none (k2_pay4 x0 x1) x2 (constant S1x1 .f32 0x00000000#32) (ix2 p q) + x3 (ix2 p q)) = _
  rw [Cert.LibDotT.matmulT_zero_apply dot_S1x4096_S1x4096_S1x1_1_1_0_0_n_n rfl rfl rfl rfl (fun _ _ => rfl) (fun _ _ => rfl), pay4_eq]

/-- The output from the blended gate. -/
theorem pay1_eq (x0 : Vec Ideal S1x16384 .f32) (x1 x2 : Vec Ideal S1x4096 .f32) (x3 x4 x6 x5 : Vec Ideal S1x1 .f32) :
    k2_pay1 (F := Ideal) (k2_pay6 x0 x1 x2 x3 x4 x6) (k2_pay7 x0 x1 x2 x3 x4 x6) x5
      = Cell.outY (Cell.blend x4 x6 (Cell.headGate (Cell.hidNew x0 x1) x2 x3)) x4 x5 := by
  funext i
  unfold k2_pay1 k2_pay6 k2_pay7 Cell.outY
  rw [pay5_eq]
  rfl

/-! ## The launch -/

/-- The printed index maps at the grid's one point: every window's block index is (0, 0). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

variable (V : (c : Dev nD) → (b : Ref sig .tc) → Buf (Elt Ideal) ((c : Thread nD τ).loc b))

/-- Window 0's one block is the whole array. -/
theorem blk0 (c : Dev nD) (t : Fin cfg2.N) : (iblk2 V c 0 t : Vec Ideal S1x16384 .f32) = V c main_v7 := by
  funext y
  show V c main_v7 (((cfg2.win 0).blk t).view.emb y) = V c main_v7 y
  refine congrArg (V c main_v7) (funext fun a => Fin.ext ?_)
  have e0 := (idx_facts t).1
  have e1 := (idx_facts t).2.1
  match a with
  | ⟨0, _⟩ => show win2_0.index t (0 : Fin 2) * 1 + 1 * (y 0).val = (y 0).val; omega
  | ⟨1, _⟩ => show win2_0.index t (1 : Fin 2) * 16384 + 1 * (y 1).val = (y 1).val; omega
/-- Window 1's one block is the whole array. -/
theorem blk1 (c : Dev nD) (t : Fin cfg2.N) : (iblk2 V c 1 t : Vec Ideal S1x4096 .f32) = V c main_v5 := by
  funext y
  show V c main_v5 (((cfg2.win 1).blk t).view.emb y) = V c main_v5 y
  refine congrArg (V c main_v5) (funext fun a => Fin.ext ?_)
  have e0 := (idx_facts t).2.2.1
  have e1 := (idx_facts t).2.2.2.1
  match a with
  | ⟨0, _⟩ => show win2_1.index t (0 : Fin 2) * 1 + 1 * (y 0).val = (y 0).val; omega
  | ⟨1, _⟩ => show win2_1.index t (1 : Fin 2) * 4096 + 1 * (y 1).val = (y 1).val; omega
/-- Window 2's one block is the whole array. -/
theorem blk2 (c : Dev nD) (t : Fin cfg2.N) : (iblk2 V c 2 t : Vec Ideal S1x4096 .f32) = V c main_arg12 := by
  funext y
  show V c main_arg12 (((cfg2.win 2).blk t).view.emb y) = V c main_arg12 y
  refine congrArg (V c main_arg12) (funext fun a => Fin.ext ?_)
  have e0 := (idx_facts t).2.2.2.2.1
  have e1 := (idx_facts t).2.2.2.2.2.1
  match a with
  | ⟨0, _⟩ => show win2_2.index t (0 : Fin 2) * 1 + 1 * (y 0).val = (y 0).val; omega
  | ⟨1, _⟩ => show win2_2.index t (1 : Fin 2) * 4096 + 1 * (y 1).val = (y 1).val; omega
/-- Window 3's one block is the whole array. -/
theorem blk3 (c : Dev nD) (t : Fin cfg2.N) : (iblk2 V c 3 t : Vec Ideal S1x1 .f32) = V c main_v3 := by
  funext y
  show V c main_v3 (((cfg2.win 3).blk t).view.emb y) = V c main_v3 y
  refine congrArg (V c main_v3) (funext fun a => Fin.ext ?_)
  have e0 := (idx_facts t).2.2.2.2.2.2.1
  have e1 := (idx_facts t).2.2.2.2.2.2.2.1
  match a with
  | ⟨0, _⟩ => show win2_3.index t (0 : Fin 2) * 1 + 1 * (y 0).val = (y 0).val; omega
  | ⟨1, _⟩ => show win2_3.index t (1 : Fin 2) * 1 + 1 * (y 1).val = (y 1).val; omega
/-- Window 4's one block is the whole array. -/
theorem blk4 (c : Dev nD) (t : Fin cfg2.N) : (iblk2 V c 4 t : Vec Ideal S1x1 .f32) = V c main_arg1 := by
  funext y
  show V c main_arg1 (((cfg2.win 4).blk t).view.emb y) = V c main_arg1 y
  refine congrArg (V c main_arg1) (funext fun a => Fin.ext ?_)
  have e0 := (idx_facts t).2.2.2.2.2.2.2.2.1
  have e1 := (idx_facts t).2.2.2.2.2.2.2.2.2.1
  match a with
  | ⟨0, _⟩ => show win2_4.index t (0 : Fin 2) * 1 + 1 * (y 0).val = (y 0).val; omega
  | ⟨1, _⟩ => show win2_4.index t (1 : Fin 2) * 1 + 1 * (y 1).val = (y 1).val; omega
/-- Window 5's one block is the whole array. -/
theorem blk5 (c : Dev nD) (t : Fin cfg2.N) : (iblk2 V c 5 t : Vec Ideal S1x1 .f32) = V c main_arg4 := by
  funext y
  show V c main_arg4 (((cfg2.win 5).blk t).view.emb y) = V c main_arg4 y
  refine congrArg (V c main_arg4) (funext fun a => Fin.ext ?_)
  have e0 := (idx_facts t).2.2.2.2.2.2.2.2.2.2.1
  have e1 := (idx_facts t).2.2.2.2.2.2.2.2.2.2.2.1
  match a with
  | ⟨0, _⟩ => show win2_5.index t (0 : Fin 2) * 1 + 1 * (y 0).val = (y 0).val; omega
  | ⟨1, _⟩ => show win2_5.index t (1 : Fin 2) * 1 + 1 * (y 1).val = (y 1).val; omega
/-- Window 6's one block is the whole array. -/
theorem blk6 (c : Dev nD) (t : Fin cfg2.N) : (iblk2 V c 6 t : Vec Ideal S1x1 .f32) = V c main_arg5 := by
  funext y
  show V c main_arg5 (((cfg2.win 6).blk t).view.emb y) = V c main_arg5 y
  refine congrArg (V c main_arg5) (funext fun a => Fin.ext ?_)
  have e0 := (idx_facts t).2.2.2.2.2.2.2.2.2.2.2.2.1
  have e1 := (idx_facts t).2.2.2.2.2.2.2.2.2.2.2.2.2.1
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- Reading the whole-array function through window 7's one block gives it back. -/
theorem read7 (t : Fin cfg2.N) (G : S1x4096.Idx → Elt Ideal .f32) :
    ((cfg2.win 7).blk t).view.read (Elt Ideal) G = G := by
  funext y
  show G (((cfg2.win 7).blk t).view.emb y) = G y
  refine congrArg G (funext fun a => Fin.ext ?_)
  have e0 := (idx_facts t).2.2.2.2.2.2.2.2.2.2.2.2.2.2.1
  have e1 := (idx_facts t).2.2.2.2.2.2.2.2.2.2.2.2.2.2.2.1
  match a with
  | ⟨0, _⟩ => show win2_7.index t (0 : Fin 2) * 1 + 1 * (y 0).val = (y 0).val; omega
  | ⟨1, _⟩ => show win2_7.index t (1 : Fin 2) * 4096 + 1 * (y 1).val = (y 1).val; omega

/-- What the one point writes back through window 7. -/
theorem flushed7_eq (c : Dev nD) (t : Fin cfg2.N) :
    (dat2 (F := Ideal) V c).flushed 7 t
      = ((cfg2.win 7).blk t).view.read (Elt Ideal) (Cell.hidNew (V c main_v7) (V c main_v5)) := by
  show (cfg2.win 7).cut (grid2.coords t) ((dat2 V c).after 7 t) = _
  rw [after2_7, read7]
  unfold out2_7
  rw [View.canon_unit_zero hz]
  simp only [View.ld_unit_zero (S := S1x16384) hz, View.ld_unit_zero (S := S1x4096) hz, View.ld_unit_zero (S := S1x1) hz]
  rw [blk0, blk1]
  exact pay4_eq _ _

/-- Window 7's one block covers its array. -/
theorem cover7 (i : S1x4096.Idx) :
    ∃ t : Fin cfg2.N, (cfg2.win 7).flush t = true ∧ i ∈ ((cfg2.win 7).blk t).view.set := by
  have hi0 : (i 0).val < 1 := idx2_lt0 i
  have hi1 : (i 1).val < 4096 := idx2_lt1 i
  have ht : 0 < cfg2.N := by rw [show cfg2.N = 1 from N_2]; omega
  refine ⟨⟨0, ht⟩, flush2_7 _, ?_⟩
  show i ∈ ((View.whole main_v8_0).slice (win2_7.rect ⟨0, ht⟩)).set
  rw [View.set_slice_whole, Rect.mem_set_unit]
  have e0 := (idx_facts ⟨0, ht⟩).2.2.2.2.2.2.2.2.2.2.2.2.2.2.1
  have e1 := (idx_facts ⟨0, ht⟩).2.2.2.2.2.2.2.2.2.2.2.2.2.2.2.1
  intro a
  match a with
  | ⟨0, _⟩ =>
    show win2_7.index ⟨0, ht⟩ (0 : Fin 2) * 1 ≤ (i 0).val ∧ (i 0).val < win2_7.index ⟨0, ht⟩ (0 : Fin 2) * 1 + 1
    omega
  | ⟨1, _⟩ =>
    show win2_7.index ⟨0, ht⟩ (1 : Fin 2) * 4096 ≤ (i 1).val ∧ (i 1).val < win2_7.index ⟨0, ht⟩ (1 : Fin 2) * 4096 + 4096
    omega

/-- The array window 7 writes, after the launch. -/
theorem value7 (c : Dev nD) :
    (dat2 (F := Ideal) V c).arrAt 7 cfg2.N = Cell.hidNew (V c main_v7) (V c main_v5) :=
  (dat2 V c).arrAt_eq_of_cover 7 _ (fun t _ => flushed7_eq V c t) cover7

/-- Reading the whole-array function through window 8's one block gives it back. -/
theorem read8 (t : Fin cfg2.N) (G : S1x4096.Idx → Elt Ideal .f32) :
    ((cfg2.win 8).blk t).view.read (Elt Ideal) G = G := by
  funext y
  show G (((cfg2.win 8).blk t).view.emb y) = G y
  refine congrArg G (funext fun a => Fin.ext ?_)
  have e0 := (idx_facts t).2.2.2.2.2.2.2.2.2.2.2.2.2.2.2.2.1
  have e1 := (idx_facts t).2.2.2.2.2.2.2.2.2.2.2.2.2.2.2.2.2.1
  match a with
  | ⟨0, _⟩ => show win2_8.index t (0 : Fin 2) * 1 + 1 * (y 0).val = (y 0).val; omega
  | ⟨1, _⟩ => show win2_8.index t (1 : Fin 2) * 4096 + 1 * (y 1).val = (y 1).val; omega

/-- What the one point writes back through window 8. -/
theorem flushed8_eq (c : Dev nD) (t : Fin cfg2.N) :
    (dat2 (F := Ideal) V c).flushed 8 t
      = ((cfg2.win 8).blk t).view.read (Elt Ideal) (Cell.cellNew (V c main_v7) (V c main_v5)) := by
  show (cfg2.win 8).cut (grid2.coords t) ((dat2 V c).after 8 t) = _
  rw [after2_8, read8]
  unfold out2_8
  rw [View.canon_unit_zero hz]
  simp only [View.ld_unit_zero (S := S1x16384) hz, View.ld_unit_zero (S := S1x4096) hz, View.ld_unit_zero (S := S1x1) hz]
  rw [blk0, blk1]
  exact pay3_eq _ _

/-- Window 8's one block covers its array. -/
theorem cover8 (i : S1x4096.Idx) :
    ∃ t : Fin cfg2.N, (cfg2.win 8).flush t = true ∧ i ∈ ((cfg2.win 8).blk t).view.set := by
  have hi0 : (i 0).val < 1 := idx2_lt0 i
  have hi1 : (i 1).val < 4096 := idx2_lt1 i
  have ht : 0 < cfg2.N := by rw [show cfg2.N = 1 from N_2]; omega
  refine ⟨⟨0, ht⟩, flush2_8 _, ?_⟩
  show i ∈ ((View.whole main_v8_1).slice (win2_8.rect ⟨0, ht⟩)).set
  rw [View.set_slice_whole, Rect.mem_set_unit]
  have e0 := (idx_facts ⟨0, ht⟩).2.2.2.2.2.2.2.2.2.2.2.2.2.2.2.2.1
  have e1 := (idx_facts ⟨0, ht⟩).2.2.2.2.2.2.2.2.2.2.2.2.2.2.2.2.2.1
  intro a
  match a with
  | ⟨0, _⟩ =>
    show win2_8.index ⟨0, ht⟩ (0 : Fin 2) * 1 ≤ (i 0).val ∧ (i 0).val < win2_8.index ⟨0, ht⟩ (0 : Fin 2) * 1 + 1
    omega
  | ⟨1, _⟩ =>
    show win2_8.index ⟨0, ht⟩ (1 : Fin 2) * 4096 ≤ (i 1).val ∧ (i 1).val < win2_8.index ⟨0, ht⟩ (1 : Fin 2) * 4096 + 4096
    omega

/-- The array window 8 writes, after the launch. -/
theorem value8 (c : Dev nD) :
    (dat2 (F := Ideal) V c).arrAt 8 cfg2.N = Cell.cellNew (V c main_v7) (V c main_v5) :=
  (dat2 V c).arrAt_eq_of_cover 8 _ (fun t _ => flushed8_eq V c t) cover8

/-- Reading the whole-array function through window 9's one block gives it back. -/
theorem read9 (t : Fin cfg2.N) (G : S1x1.Idx → Elt Ideal .f32) :
    ((cfg2.win 9).blk t).view.read (Elt Ideal) G = G := by
  funext y
  show G (((cfg2.win 9).blk t).view.emb y) = G y
  refine congrArg G (funext fun a => Fin.ext ?_)
  have e0 := (idx_facts t).2.2.2.2.2.2.2.2.2.2.2.2.2.2.2.2.2.2.1
  have e1 := (idx_facts t).2.2.2.2.2.2.2.2.2.2.2.2.2.2.2.2.2.2.2.1
  match a with
  | ⟨0, _⟩ => show win2_9.index t (0 : Fin 2) * 1 + 1 * (y 0).val = (y 0).val; omega
  | ⟨1, _⟩ => show win2_9.index t (1 : Fin 2) * 1 + 1 * (y 1).val = (y 1).val; omega

/-- What the one point writes back through window 9. -/
theorem flushed9_eq (c : Dev nD) (t : Fin cfg2.N) :
    (dat2 (F := Ideal) V c).flushed 9 t
      = ((cfg2.win 9).blk t).view.read (Elt Ideal) (Cell.outY (Cell.blend (V c main_arg1) (V c main_arg5) (Cell.headGate (Cell.hidNew (V c main_v7) (V c main_v5)) (V c main_arg12) (V c main_v3))) (V c main_arg1) (V c main_arg4)) := by
  show (cfg2.win 9).cut (grid2.coords t) ((dat2 V c).after 9 t) = _
  rw [after2_9, read9]
  unfold out2_9
  rw [View.canon_unit_zero hz]
  simp only [View.ld_unit_zero (S := S1x16384) hz, View.ld_unit_zero (S := S1x4096) hz, View.ld_unit_zero (S := S1x1) hz]
  rw [blk0, blk1, blk2, blk3, blk4, blk6, blk5]
  exact pay1_eq _ _ _ _ _ _ _

/-- Window 9's one block covers its array. -/
theorem cover9 (i : S1x1.Idx) :
    ∃ t : Fin cfg2.N, (cfg2.win 9).flush t = true ∧ i ∈ ((cfg2.win 9).blk t).view.set := by
  have hi0 : (i 0).val < 1 := idx2_lt0 i
  have hi1 : (i 1).val < 1 := idx2_lt1 i
  have ht : 0 < cfg2.N := by rw [show cfg2.N = 1 from N_2]; omega
  refine ⟨⟨0, ht⟩, flush2_9 _, ?_⟩
  show i ∈ ((View.whole main_v8_2).slice (win2_9.rect ⟨0, ht⟩)).set
  rw [View.set_slice_whole, Rect.mem_set_unit]
  have e0 := (idx_facts ⟨0, ht⟩).2.2.2.2.2.2.2.2.2.2.2.2.2.2.2.2.2.2.1
  have e1 := (idx_facts ⟨0, ht⟩).2.2.2.2.2.2.2.2.2.2.2.2.2.2.2.2.2.2.2.1
  intro a
  match a with
  | ⟨0, _⟩ =>
    show win2_9.index ⟨0, ht⟩ (0 : Fin 2) * 1 ≤ (i 0).val ∧ (i 0).val < win2_9.index ⟨0, ht⟩ (0 : Fin 2) * 1 + 1
    omega
  | ⟨1, _⟩ =>
    show win2_9.index ⟨0, ht⟩ (1 : Fin 2) * 1 ≤ (i 1).val ∧ (i 1).val < win2_9.index ⟨0, ht⟩ (1 : Fin 2) * 1 + 1
    omega

/-- The array window 9 writes, after the launch. -/
theorem value9 (c : Dev nD) :
    (dat2 (F := Ideal) V c).arrAt 9 cfg2.N = Cell.outY (Cell.blend (V c main_arg1) (V c main_arg5) (Cell.headGate (Cell.hidNew (V c main_v7) (V c main_v5)) (V c main_arg12) (V c main_v3))) (V c main_arg1) (V c main_arg4) :=
  (dat2 V c).arrAt_eq_of_cover 9 _ (fun t _ => flushed9_eq V c t) cover9

/-- Reading the whole-array function through window 10's one block gives it back. -/
theorem read10 (t : Fin cfg2.N) (G : S1x1.Idx → Elt Ideal .f32) :
    ((cfg2.win 10).blk t).view.read (Elt Ideal) G = G := by
  funext y
  show G (((cfg2.win 10).blk t).view.emb y) = G y
  refine congrArg G (funext fun a => Fin.ext ?_)
  have e0 := (idx_facts t).2.2.2.2.2.2.2.2.2.2.2.2.2.2.2.2.2.2.2.2.1
  have e1 := (idx_facts t).2.2.2.2.2.2.2.2.2.2.2.2.2.2.2.2.2.2.2.2.2
  match a with
  | ⟨0, _⟩ => show win2_10.index t (0 : Fin 2) * 1 + 1 * (y 0).val = (y 0).val; omega
  | ⟨1, _⟩ => show win2_10.index t (1 : Fin 2) * 1 + 1 * (y 1).val = (y 1).val; omega

/-- What the one point writes back through window 10. -/
theorem flushed10_eq (c : Dev nD) (t : Fin cfg2.N) :
    (dat2 (F := Ideal) V c).flushed 10 t
      = ((cfg2.win 10).blk t).view.read (Elt Ideal) (Cell.blend (V c main_arg1) (V c main_arg5) (Cell.headGate (Cell.hidNew (V c main_v7) (V c main_v5)) (V c main_arg12) (V c main_v3))) := by
  show (cfg2.win 10).cut (grid2.coords t) ((dat2 V c).after 10 t) = _
  rw [after2_10, read10]
  unfold out2_10
  rw [View.canon_unit_zero hz]
  simp only [View.ld_unit_zero (S := S1x16384) hz, View.ld_unit_zero (S := S1x4096) hz, View.ld_unit_zero (S := S1x1) hz]
  rw [blk0, blk1, blk2, blk3, blk4, blk6]
  exact pay5_eq _ _ _ _ _ _

/-- Window 10's one block covers its array. -/
theorem cover10 (i : S1x1.Idx) :
    ∃ t : Fin cfg2.N, (cfg2.win 10).flush t = true ∧ i ∈ ((cfg2.win 10).blk t).view.set := by
  have hi0 : (i 0).val < 1 := idx2_lt0 i
  have hi1 : (i 1).val < 1 := idx2_lt1 i
  have ht : 0 < cfg2.N := by rw [show cfg2.N = 1 from N_2]; omega
  refine ⟨⟨0, ht⟩, flush2_10 _, ?_⟩
  show i ∈ ((View.whole main_v8_3).slice (win2_10.rect ⟨0, ht⟩)).set
  rw [View.set_slice_whole, Rect.mem_set_unit]
  have e0 := (idx_facts ⟨0, ht⟩).2.2.2.2.2.2.2.2.2.2.2.2.2.2.2.2.2.2.2.2.1
  have e1 := (idx_facts ⟨0, ht⟩).2.2.2.2.2.2.2.2.2.2.2.2.2.2.2.2.2.2.2.2.2
  intro a
  match a with
  | ⟨0, _⟩ =>
    show win2_10.index ⟨0, ht⟩ (0 : Fin 2) * 1 ≤ (i 0).val ∧ (i 0).val < win2_10.index ⟨0, ht⟩ (0 : Fin 2) * 1 + 1
    omega
  | ⟨1, _⟩ =>
    show win2_10.index ⟨0, ht⟩ (1 : Fin 2) * 1 ≤ (i 1).val ∧ (i 1).val < win2_10.index ⟨0, ht⟩ (1 : Fin 2) * 1 + 1
    omega

/-- The array window 10 writes, after the launch. -/
theorem value10 (c : Dev nD) :
    (dat2 (F := Ideal) V c).arrAt 10 cfg2.N = Cell.blend (V c main_arg1) (V c main_arg5) (Cell.headGate (Cell.hidNew (V c main_v7) (V c main_v5)) (V c main_arg12) (V c main_v3)) :=
  (dat2 V c).arrAt_eq_of_cover 10 _ (fun t _ => flushed10_eq V c t) cover10

end Cert.Cell.Layer2

end
-- ==== Proof.HostSide.lean ====
/-
  The host operations around the three launches, read as the specification's rows.

  Before the launches the program reshapes the bias vector b1 into a row, adds the two gate biases and reshapes the
  sum into a row, reshapes b3 into a [1, 1] array and drops the leading unit axis of the two [1, 1, 4096] states; after
  them it gives the two result rows their leading unit axis back. A reshape keeps the row-major order of the entries,
  so each of these is the corresponding re-indexing of `Cell`: `rowOf`, `rowOf3`, `stateOf`. No host operation
  writes an argument, so every argument is found as launched.
-/
import proofs.«175204_j88622355185707_2_alg».proof.Proof.Gen.KernelIdeal.Frame
import proofs.«175204_j88622355185707_2_alg».proof.Proof.CellSpec
import Idealize.ShloMosaic.Lib.Pipeline.Value
import Idealize.ShloMosaic.Lib.ValueIdx
import Idealize.ShloMosaic.Lib.StableHlo.Run

set_option maxRecDepth 16384

noncomputable section

namespace Cert.Cell.Host

open Cert.KernelIdeal Cert.KernelIdeal.Gen
open Idealize.ShloMosaic Idealize.ShloMosaic.TcCoe Idealize.ShloMosaic.ValueIdx Idealize.SL.Sem Idealize.ShloMosaic.StableHlo

/-! ## Layout operations as re-indexings -/

/-- A vector of n entries reshaped to [1, n] is the vector as a row. -/
theorem row_of_vec {n : Nat} (v : Cell.Arr ⟨1, ![n]⟩) (h : (⟨1, ![n]⟩ : Shape).ShapeCasts ⟨2, ![1, n]⟩) :
    shapeCast ⟨2, ![1, n]⟩ v h = Cell.rowOf v := by
  funext j
  refine (shapeCast_addUnit_apply ![n] v h j).trans ?_
  unfold Cell.rowOf
  refine congrArg v (funext fun a => ?_)
  match a with
  | ⟨0, _⟩ => rfl

/-- A [1, 1, 4096] array reshaped to [1, 4096] is the array as a row. -/
theorem row_of_state (v : Cell.Arr Cell.S114096) (h : Cell.S114096.ShapeCasts Cell.SH) :
    shapeCast Cell.SH v h = Cell.rowOf3 v := by
  funext j
  refine (shapeCast_dropUnit_apply ![1, 4096] v h j).trans ?_
  unfold Cell.rowOf3
  refine congrArg v (funext fun a => Fin.ext ?_)
  have h0 : (j 0).val < 1 := idx2_lt0 j
  match a with
  | ⟨0, _⟩ => rfl
  | ⟨1, _⟩ => show (j 0).val = 0; omega
  | ⟨2, _⟩ => rfl

/-- A row broadcast to [1, 1, 4096] along its own two axes is the row with a leading unit axis. -/
theorem state_of_row (v : Cell.Arr Cell.SH) (h : Cell.SH.BroadcastsInDim Cell.S114096 ![1, 2]) :
    broadcastInDim Cell.S114096 ![1, 2] h v = Cell.stateOf v := by
  funext i
  unfold Cell.stateOf
  refine broadcastInDim_apply ![1, 2] h v i _ fun a => ?_
  match a with
  | ⟨0, _⟩ => show 0 = if (1 : Nat) = 1 then 0 else (i 1).val; rw [if_pos rfl]
  | ⟨1, _⟩ => show (i 2).val = if (4096 : Nat) = 1 then 0 else (i 2).val; rw [if_neg (by decide)]

/-! ## The buffers as the first launch finds them -/

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results
theorem W1_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results
theorem W1_arg12 (c : Dev nD) : W1 m ρ c (Proc.devRef .tc main_arg12) = m ((c : Thread nD τ).loc main_arg12) := by
  show StableHlo.after hostOps0 (W0 m ρ c) (Proc.devRef .tc main_arg12) = _
  dsimp only [hostOps0]
  after_results

/-- The bias row of the first layer. -/
theorem W1_v0 (c : Dev nD) :
    (W1 m ρ c (Proc.devRef .tc main_v0) : Cell.Arr Cell.SH) = Cell.rowOf (m ((c : Thread nD τ).loc main_arg7)) := by
  refine Eq.trans ?_ (row_of_vec _ shapeCasts_S4096_S1x4096)
  show StableHlo.after hostOps0 (W0 m ρ c) (Proc.devRef .tc main_v0) = _
  dsimp only [hostOps0]
  after_results
  rfl

/-- The gates' bias row: the two bias vectors added, then laid out as a row. -/
theorem W1_v2 (c : Dev nD) :
    (W1 m ρ c (Proc.devRef .tc main_v2) : Cell.Arr Cell.SG)
      = fun i => Cell.rowOf (m ((c : Thread nD τ).loc main_arg9)) i + Cell.rowOf (m ((c : Thread nD τ).loc main_arg11)) i := by
  refine Eq.trans ?_ (row_of_vec (addf (F := Ideal) (m ((c : Thread nD τ).loc main_arg9)) (m ((c : Thread nD τ).loc main_arg11))) shapeCasts_S16384_S1x16384)
  show StableHlo.after hostOps0 (W0 m ρ c) (Proc.devRef .tc main_v2) = _
  dsimp only [hostOps0]
  after_results
  rfl

/-- The head's bias as a [1, 1] array. -/
theorem W1_v3 (c : Dev nD) :
    (W1 m ρ c (Proc.devRef .tc main_v3) : Cell.Arr Cell.S11) = Cell.rowOf (m ((c : Thread nD τ).loc main_arg13)) := by
  refine Eq.trans ?_ (row_of_vec _ shapeCasts_S1_S1x1)
  show StableHlo.after hostOps0 (W0 m ρ c) (Proc.devRef .tc main_v3) = _
  dsimp only [hostOps0]
  after_results
  rfl

/-- The old hidden state as a row. -/
theorem W1_v4 (c : Dev nD) :
    (W1 m ρ c (Proc.devRef .tc main_v4) : Cell.Arr Cell.SH) = Cell.rowOf3 (m ((c : Thread nD τ).loc main_arg2)) := by
  refine Eq.trans ?_ (row_of_state _ shapeCasts_S1x1x4096_S1x4096)
  show StableHlo.after hostOps0 (W0 m ρ c) (Proc.devRef .tc main_v4) = _
  dsimp only [hostOps0]
  after_results
  rfl

/-- The old cell state as a row. -/
theorem W1_v5 (c : Dev nD) :
    (W1 m ρ c (Proc.devRef .tc main_v5) : Cell.Arr Cell.SH) = Cell.rowOf3 (m ((c : Thread nD τ).loc main_arg3)) := by
  refine Eq.trans ?_ (row_of_state _ shapeCasts_S1x1x4096_S1x4096)
  show StableHlo.after hostOps0 (W0 m ρ c) (Proc.devRef .tc main_v5) = _
  dsimp only [hostOps0]
  after_results
  rfl

end Cert.Cell.Host

end
-- ==== Proof.KernelValue.lean ====
/-
  The kernel program's four results as functions of its arguments.

  The buffer contents at the five boundaries of the run are followed from the launch memory to the return. The first
  launch leaves z = `Cell.zRow` in its result row; the second finds that row, the old hidden state as a row, the two
  weight matrices and the summed bias row, and leaves the gates' row `Cell.gRow`; the third finds the gates' row, the
  old cell state as a row, the head's weights and bias and the three scalars, and leaves h', c', y and a. The two host
  operations after the launches give h' and c' their leading unit axis. A buffer a launch does not write is found by
  the next launch as the previous one found it.
-/
import proofs.«175204_j88622355185707_2_alg».proof.Proof.Gen.KernelIdeal.Frame
import proofs.«175204_j88622355185707_2_alg».proof.Proof.CellSpec
import proofs.«175204_j88622355185707_2_alg».proof.Proof.Layer0
import proofs.«175204_j88622355185707_2_alg».proof.Proof.Layer1
import proofs.«175204_j88622355185707_2_alg».proof.Proof.Layer2
import proofs.«175204_j88622355185707_2_alg».proof.Proof.HostSide

set_option maxRecDepth 16384

noncomputable section

namespace Cert.Cell.Kernel

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the first launch its result row holds z. -/
theorem W2_v6 (c : Dev nD) :
    (W2 m ρ c (Proc.devRef .tc main_v6) : Cell.Arr Cell.SH) = Cell.zRow (m ((c : Thread nD τ).loc main_arg0)) (m ((c : Thread nD τ).loc main_arg6)) (m ((c : Thread nD τ).loc main_arg7)) := by
  refine (W2_arr m ρ c 3).trans ?_
  rw [Layer0.value (Gen.V1 m ρ) c]
  show Cell.hidden (W1 m ρ c (Proc.devRef .tc main_arg0)) (W1 m ρ c (Proc.devRef .tc main_arg6)) (W1 m ρ c (Proc.devRef .tc main_v0)) = _
  rw [Host.W1_arg0, Host.W1_arg6, Host.W1_v0]
  rfl

/-- After the second launch its result row holds the gates' row. -/
theorem W3_v7 (c : Dev nD) :
    (W3 m ρ c (Proc.devRef .tc main_v7) : Cell.Arr Cell.SG) = Cell.gRow (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W3_arr m ρ c 5).trans ?_
  rw [Layer1.value (Gen.V2 m ρ) c]
  show Cell.gates (W2 m ρ c (Proc.devRef .tc main_v6)) (W2 m ρ c (Proc.devRef .tc main_v4)) (W2 m ρ c (Proc.devRef .tc main_arg8))
    (W2 m ρ c (Proc.devRef .tc main_arg10)) (W2 m ρ c (Proc.devRef .tc main_v2)) = _
  rw [W2_v6, W2_of_ne m ρ c main_v4 (by decide), W2_of_ne m ρ c main_arg8 (by decide),
    W2_of_ne m ρ c main_arg10 (by decide), W2_of_ne m ρ c main_v2 (by decide),
    Host.W1_v4, Host.W1_arg8, Host.W1_arg10, Host.W1_v2]
  rfl

/-- After the third launch: h' as a row. -/
theorem W4_h (c : Dev nD) :
    (W4 m ρ c (Proc.devRef .tc main_v8_0) : Cell.Arr Cell.SH) = Cell.hRow (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 7).trans ?_
  rw [Layer2.value7 (Gen.V3 m ρ) c]
  show Cell.hidNew (W3 m ρ c (Proc.devRef .tc main_v7)) (W3 m ρ c (Proc.devRef .tc main_v5)) = _
  rw [W3_v7, W3_of_ne m ρ c main_v5 (by decide), W2_of_ne m ρ c main_v5 (by decide), Host.W1_v5]
  rfl

/-- After the third launch: c' as a row. -/
theorem W4_c (c : Dev nD) :
    (W4 m ρ c (Proc.devRef .tc main_v8_1) : Cell.Arr Cell.SH) = Cell.cRow (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 8).trans ?_
  rw [Layer2.value8 (Gen.V3 m ρ) c]
  show Cell.cellNew (W3 m ρ c (Proc.devRef .tc main_v7)) (W3 m ρ c (Proc.devRef .tc main_v5)) = _
  rw [W3_v7, W3_of_ne m ρ c main_v5 (by decide), W2_of_ne m ρ c main_v5 (by decide), Host.W1_v5]
  rfl

/-- After the third launch: a. -/
theorem W4_a (c : Dev nD) :
    (W4 m ρ c (Proc.devRef .tc main_v8_3) : Cell.Arr Cell.S11) = Cell.aOut (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 10).trans ?_
  rw [Layer2.value10 (Gen.V3 m ρ) c]
  show Cell.blend (W3 m ρ c (Proc.devRef .tc main_arg1)) (W3 m ρ c (Proc.devRef .tc main_arg5)) (Cell.headGate (Cell.hidNew (W3 m ρ c (Proc.devRef .tc main_v7)) (W3 m ρ c (Proc.devRef .tc main_v5))) (W3 m ρ c (Proc.devRef .tc main_arg12)) (W3 m ρ c (Proc.devRef .tc main_v3))) = _
  rw [W3_v7, W3_of_ne m ρ c main_v5 (by decide), W2_of_ne m ρ c main_v5 (by decide), Host.W1_v5,
    W3_of_ne m ρ c main_arg12 (by decide), W2_of_ne m ρ c main_arg12 (by decide), Host.W1_arg12,
    W3_of_ne m ρ c main_v3 (by decide), W2_of_ne m ρ c main_v3 (by decide), Host.W1_v3,
    W3_of_ne m ρ c main_arg1 (by decide), W2_of_ne m ρ c main_arg1 (by decide), Host.W1_arg1,
    W3_of_ne m ρ c main_arg5 (by decide), W2_of_ne m ρ c main_arg5 (by decide), Host.W1_arg5]
  rfl

/-- After the third launch: y. -/
theorem W4_y (c : Dev nD) :
    (W4 m ρ c (Proc.devRef .tc main_v8_2) : Cell.Arr Cell.S11) = Cell.yOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 9).trans ?_
  rw [Layer2.value9 (Gen.V3 m ρ) c]
  show Cell.outY (Cell.blend (W3 m ρ c (Proc.devRef .tc main_arg1)) (W3 m ρ c (Proc.devRef .tc main_arg5)) (Cell.headGate (Cell.hidNew (W3 m ρ c (Proc.devRef .tc main_v7)) (W3 m ρ c (Proc.devRef .tc main_v5))) (W3 m ρ c (Proc.devRef .tc main_arg12)) (W3 m ρ c (Proc.devRef .tc main_v3)))) (W3 m ρ c (Proc.devRef .tc main_arg1)) (W3 m ρ c (Proc.devRef .tc main_arg4)) = _
  rw [W3_v7, W3_of_ne m ρ c main_v5 (by decide), W2_of_ne m ρ c main_v5 (by decide), Host.W1_v5,
    W3_of_ne m ρ c main_arg12 (by decide), W2_of_ne m ρ c main_arg12 (by decide), Host.W1_arg12,
    W3_of_ne m ρ c main_v3 (by decide), W2_of_ne m ρ c main_v3 (by decide), Host.W1_v3,
    W3_of_ne m ρ c main_arg1 (by decide), W2_of_ne m ρ c main_arg1 (by decide), Host.W1_arg1,
    W3_of_ne m ρ c main_arg5 (by decide), W2_of_ne m ρ c main_arg5 (by decide), Host.W1_arg5,
    W3_of_ne m ρ c main_arg4 (by decide), W2_of_ne m ρ c main_arg4 (by decide), Host.W1_arg4]
  rfl

/-! ## At the return -/

/-- y at the return. -/
theorem W5_y (c : Dev nD) :
    (W5 m ρ c (Proc.devRef .tc main_v8_2) : Cell.Arr Cell.S11) = Cell.yOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine Eq.trans ?_ (W4_y m ρ c)
  show StableHlo.after hostOps3 (W4 m ρ c) (Proc.devRef .tc main_v8_2) = _
  dsimp only [hostOps3]
  after_results

/-- a at the return. -/
theorem W5_a (c : Dev nD) :
    (W5 m ρ c (Proc.devRef .tc main_v8_3) : Cell.Arr Cell.S11) = Cell.aOut (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine Eq.trans ?_ (W4_a m ρ c)
  show StableHlo.after hostOps3 (W4 m ρ c) (Proc.devRef .tc main_v8_3) = _
  dsimp only [hostOps3]
  after_results

/-- h' at the return, with its leading unit axis. -/
theorem W5_h (c : Dev nD) :
    (W5 m ρ c (Proc.devRef .tc main_v9) : Cell.Arr Cell.S114096) = Cell.hOut (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine Eq.trans ?_ ((Host.state_of_row _ bcast_S1x4096_S1x1x4096_1_2).trans (congrArg Cell.stateOf (W4_h m ρ c)))
  show StableHlo.after hostOps3 (W4 m ρ c) (Proc.devRef .tc main_v9) = _
  dsimp only [hostOps3]
  after_results

/-- c' at the return, with its leading unit axis. -/
theorem W5_c (c : Dev nD) :
    (W5 m ρ c (Proc.devRef .tc main_v10) : Cell.Arr Cell.S114096) = Cell.cOut (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine Eq.trans ?_ ((Host.state_of_row _ bcast_S1x4096_S1x1x4096_1_2).trans (congrArg Cell.stateOf (W4_c m ρ c)))
  show StableHlo.after hostOps3 (W4 m ρ c) (Proc.devRef .tc main_v10) = _
  dsimp only [hostOps3]
  after_results

end Cert.Cell.Kernel

end
-- ==== Proof.RefCell.lean ====
/-
  The reference program computes the recurrent cell of the specification.

  Each layer of the reference, read at an index, is the corresponding layer of the specification: the rectified
  fully connected layer, the gates' row (the reference adds the two biases one after the other, the specification
  adds them to each other first: the same sum of four terms), the new cell and hidden states (every logistic
  function is spelled 1 / (1 + e^(−t)) in the reference), the scalar gate and the two blends.
-/
import proofs.«175204_j88622355185707_2_alg».proof.Proof.Gen.ReferenceIdeal.Read
import proofs.«175204_j88622355185707_2_alg».proof.Proof.CellSpec

noncomputable section

open scoped BigOperators

namespace Cert.Cell.Ref

open Cert.ReferenceIdeal Cert.ReferenceIdeal.Gen Cert.ReferenceIdeal.Read Idealize.ShloMosaic Idealize.ShloMosaic.ValueIdx
open Cert.Cell

variable (x0 : (⟨S1x8192, .f32⟩ : BufTy).Contents (Elt Ideal)) (x1 : (⟨S1x1, .f32⟩ : BufTy).Contents (Elt Ideal))
  (x2 x3 : (⟨S1x1x4096, .f32⟩ : BufTy).Contents (Elt Ideal)) (x4 x5 : (⟨S1x1, .f32⟩ : BufTy).Contents (Elt Ideal))
  (x6 : (⟨S4096x8192, .f32⟩ : BufTy).Contents (Elt Ideal)) (x7 : (⟨S4096, .f32⟩ : BufTy).Contents (Elt Ideal))
  (x8 : (⟨S16384x4096, .f32⟩ : BufTy).Contents (Elt Ideal)) (x9 : (⟨S16384, .f32⟩ : BufTy).Contents (Elt Ideal))
  (x10 : (⟨S16384x4096, .f32⟩ : BufTy).Contents (Elt Ideal)) (x11 : (⟨S16384, .f32⟩ : BufTy).Contents (Elt Ideal))
  (x12 : (⟨S1x4096, .f32⟩ : BufTy).Contents (Elt Ideal)) (x13 : (⟨S1, .f32⟩ : BufTy).Contents (Elt Ideal))

/-! ## The rectified fully connected layer -/

/-- The left operand of the first product is read at (row, k). -/
theorem lidx_v1 (i : S1x4096.Idx) (k : Fin 8192) : lidx_main_v1 i k = ix2 (r0 i) k := by
  funext a; match a with | ⟨0, _⟩ => rfl | ⟨1, _⟩ => rfl

/-- The transposed weight read at (k, column) is the weight at (column, k). -/
theorem ridx_v1 (i : S1x4096.Idx) (k : Fin 8192) : idx_main_v0 (ridx_main_v1 i k) = ix2 (r1 i) k := by
  funext a; match a with | ⟨0, _⟩ => rfl | ⟨1, _⟩ => rfl

/-- A bias vector broadcast along the row is read at the column. -/
theorem idx_v2 (i : S1x4096.Idx) : idx_main_v2 i = ix1 (r1 i) := by
  funext a; match a with | ⟨0, _⟩ => rfl

/-- z = max (x · W1ᵀ + b1, 0). -/
theorem ref_z : val_main_v4 (F := Ideal) x0 x6 x7 = hidden x0 x6 (rowOf x7) := by
  funext i
  rw [val_main_v4_apply, val_main_v3_apply, val_main_v1_apply, val_main_v2_apply, val_main_call0_v0_apply,
    val_main_call0_cst_apply]
  simp only [val_main_v0_apply, lidx_v1, ridx_v1, idx_v2]
  rfl

/-! ## The arguments as the rows the layers read -/

/-- A bias vector of 4096 entries broadcast to a row is the row of the specification. -/
theorem ref_row_b1 : val_main_v2 (F := Ideal) x7 = rowOf x7 := by
  funext i; rw [val_main_v2_apply, idx_v2]; rfl

/-- A bias vector of 16384 entries broadcast along the row is read at the column. -/
theorem idx_v9 (i : S1x16384.Idx) : idx_main_v9 i = ix1 (r1 i) := by
  funext a; match a with | ⟨0, _⟩ => rfl
theorem idx_v14 (i : S1x16384.Idx) : idx_main_v14 i = ix1 (r1 i) := by
  funext a; match a with | ⟨0, _⟩ => rfl

theorem ref_row_bi : val_main_v9 (F := Ideal) x9 = rowOf x9 := by
  funext i; rw [val_main_v9_apply, idx_v9]; rfl
theorem ref_row_bh : val_main_v14 (F := Ideal) x11 = rowOf x11 := by
  funext i; rw [val_main_v14_apply, idx_v14]; rfl

/-- A [1, 1, 4096] state reshaped to a row is read at (0, 0, column): the row coordinate is 0. -/
theorem idx_v5 (j : S1x4096.Idx) : idx_main_v5 j = ix3 (0 : Fin 1) (0 : Fin 1) (r1 j) := by
  funext a; apply Fin.ext
  match a with
  | ⟨0, _⟩ => rfl
  | ⟨1, _⟩ => rfl
  | ⟨2, _⟩ =>
    show ((j 0).val * 4096 + (j 1).val) % 4096 = (j 1).val
    have h0 : (j 0).val < 1 := idx2_lt0 j
    have h1 : (j 1).val < 4096 := idx2_lt1 j
    omega
theorem idx_v6 (j : S1x4096.Idx) : idx_main_v6 j = ix3 (0 : Fin 1) (0 : Fin 1) (r1 j) := idx_v5 j

theorem ref_row_h0 : val_main_v5 (F := Ideal) x2 = rowOf3 x2 := by
  funext j; rw [val_main_v5_apply, idx_v5]; rfl
theorem ref_row_c0 : val_main_v6 (F := Ideal) x3 = rowOf3 x3 := by
  funext j; rw [val_main_v6_apply, idx_v6]; rfl

/-! ## The gates' row -/

theorem lidx_v8 (i : S1x16384.Idx) (k : Fin 4096) : lidx_main_v8 i k = ix2 (r0 i) k := by
  funext a; match a with | ⟨0, _⟩ => rfl | ⟨1, _⟩ => rfl
theorem ridx_v8 (i : S1x16384.Idx) (k : Fin 4096) : idx_main_v7 (ridx_main_v8 i k) = ix2 (r1 i) k := by
  funext a; match a with | ⟨0, _⟩ => rfl | ⟨1, _⟩ => rfl
theorem lidx_v12 (i : S1x16384.Idx) (k : Fin 4096) : lidx_main_v12 i k = ix2 (r0 i) k := by
  funext a; match a with | ⟨0, _⟩ => rfl | ⟨1, _⟩ => rfl
theorem ridx_v12 (i : S1x16384.Idx) (k : Fin 4096) : idx_main_v11 (ridx_main_v12 i k) = ix2 (r1 i) k := by
  funext a; match a with | ⟨0, _⟩ => rfl | ⟨1, _⟩ => rfl

/-- g = z · W_ihᵀ + h · W_hhᵀ + (b_ih + b_hh): the reference's ((z · W_ihᵀ + b_ih) + h · W_hhᵀ) + b_hh regrouped. -/
theorem ref_g_of : val_main_v15 (F := Ideal) x0 x2 x6 x7 x8 x9 x10 x11
    = gates (val_main_v4 (F := Ideal) x0 x6 x7) (rowOf3 x2) x8 x10 (fun i => rowOf x9 i + rowOf x11 i) := by
  funext i
  rw [val_main_v15_apply, val_main_v13_apply, val_main_v10_apply, val_main_v8_apply, val_main_v12_apply,
    ref_row_bi, ref_row_bh, ref_row_h0]
  simp only [val_main_v7_apply, val_main_v11_apply, lidx_v8, ridx_v8, lidx_v12, ridx_v12,
    Ideal.addf_def]
  exact add_regroup _ _ _ _

theorem ref_g : val_main_v15 (F := Ideal) x0 x2 x6 x7 x8 x9 x10 x11 = gRow x0 x2 x6 x7 x8 x9 x10 x11 := by
  rw [ref_g_of, ref_z]; rfl

/-! ## The four quarters of the gates' row -/

theorem idx_v16 (i : S1x4096.Idx) :
    idx_main_v16 i = ix2 (r0 i) (⟨0 + (i 1).val, by have := idx2_lt1 i; omega⟩ : Fin 16384) := by
  funext a; apply Fin.ext
  match a with
  | ⟨0, _⟩ => rfl
  | ⟨1, _⟩ => exact (Nat.zero_add _).symm
theorem idx_v17 (i : S1x4096.Idx) :
    idx_main_v17 i = ix2 (r0 i) (⟨4096 + (i 1).val, by have := idx2_lt1 i; omega⟩ : Fin 16384) := by
  funext a; match a with | ⟨0, _⟩ => rfl | ⟨1, _⟩ => rfl
theorem idx_v18 (i : S1x4096.Idx) :
    idx_main_v18 i = ix2 (r0 i) (⟨8192 + (i 1).val, by have := idx2_lt1 i; omega⟩ : Fin 16384) := by
  funext a; match a with | ⟨0, _⟩ => rfl | ⟨1, _⟩ => rfl
theorem idx_v19 (i : S1x4096.Idx) :
    idx_main_v19 i = ix2 (r0 i) (⟨12288 + (i 1).val, by have := idx2_lt1 i; omega⟩ : Fin 16384) := by
  funext a; match a with | ⟨0, _⟩ => rfl | ⟨1, _⟩ => rfl

theorem ref_part_i : val_main_v16 (F := Ideal) x0 x2 x6 x7 x8 x9 x10 x11
    = part 0 (by norm_num) (gRow x0 x2 x6 x7 x8 x9 x10 x11) := by
  funext i; rw [val_main_v16_apply, idx_v16, ref_g]; rfl
theorem ref_part_f : val_main_v17 (F := Ideal) x0 x2 x6 x7 x8 x9 x10 x11
    = part 4096 (by norm_num) (gRow x0 x2 x6 x7 x8 x9 x10 x11) := by
  funext i; rw [val_main_v17_apply, idx_v17, ref_g]; rfl
theorem ref_part_g : val_main_v18 (F := Ideal) x0 x2 x6 x7 x8 x9 x10 x11
    = part 8192 (by norm_num) (gRow x0 x2 x6 x7 x8 x9 x10 x11) := by
  funext i; rw [val_main_v18_apply, idx_v18, ref_g]; rfl
theorem ref_part_o : val_main_v19 (F := Ideal) x0 x2 x6 x7 x8 x9 x10 x11
    = part 12288 (by norm_num) (gRow x0 x2 x6 x7 x8 x9 x10 x11) := by
  funext i; rw [val_main_v19_apply, idx_v19, ref_g]; rfl

/-! ## The new cell state and the new hidden state -/

/-- The reference's divide(1, add(1, exp(negate t))) at the extended reals, on the float word of one. -/
theorem logistic_ops (t : EReal) :
    FloatOps.hostDivf (F := Ideal) (φ := .f32) (FloatOps.ofBits .f32 0x3F800000#32)
      (FloatOps.addf (FloatOps.ofBits .f32 0x3F800000#32) (FloatOps.hostUnary .exp (FloatOps.hostNegf t)))
      = Ideal.logistic t :=
  logistic_spelled t

/-- c' = σ(g_f) · c + σ(g_i) · tanh(g_g). -/
theorem ref_cRow : val_main_v35 (F := Ideal) x0 x2 x3 x6 x7 x8 x9 x10 x11 = cRow x0 x2 x3 x6 x7 x8 x9 x10 x11 := by
  funext i
  rw [val_main_v35_apply, val_main_v26_apply, val_main_v25_apply, val_main_v24_apply, val_main_cst_0_apply,
    val_main_v23_apply, val_main_v22_apply, val_main_cst_apply, val_main_v21_apply, val_main_v20_apply,
    val_main_v34_apply, val_main_v32_apply, val_main_v31_apply, val_main_cst_2_apply, val_main_v30_apply,
    val_main_v29_apply, val_main_cst_1_apply, val_main_v28_apply, val_main_v27_apply, val_main_v33_apply,
    logistic_ops, logistic_ops, ref_part_i, ref_part_f, ref_part_g, ref_row_c0]
  rfl

/-- h' = σ(g_o) · tanh(c'). -/
theorem ref_hRow : val_main_v43 (F := Ideal) x0 x2 x3 x6 x7 x8 x9 x10 x11 = hRow x0 x2 x3 x6 x7 x8 x9 x10 x11 := by
  funext i
  rw [val_main_v43_apply, val_main_v41_apply, val_main_v40_apply, val_main_cst_4_apply, val_main_v39_apply,
    val_main_v38_apply, val_main_cst_3_apply, val_main_v37_apply, val_main_v36_apply, val_main_v42_apply,
    logistic_ops, ref_part_o, ref_cRow]
  rfl

/-! ## The results -/

theorem idx_v64 (i : S1x1x4096.Idx) :
    idx_main_v64 i = ix2 (0 : Fin 1) (⟨(i 2).val, (i 2).isLt⟩ : Fin 4096) := by
  funext a; match a with | ⟨0, _⟩ => rfl | ⟨1, _⟩ => rfl
theorem idx_v65 (i : S1x1x4096.Idx) :
    idx_main_v65 i = ix2 (0 : Fin 1) (⟨(i 2).val, (i 2).isLt⟩ : Fin 4096) := idx_v64 i

/-- The new hidden state as the [1, 1, 4096] result. -/
theorem ref_h : val_main_v64 (F := Ideal) x0 x2 x3 x6 x7 x8 x9 x10 x11 = hOut x0 x2 x3 x6 x7 x8 x9 x10 x11 := by
  funext i; rw [val_main_v64_apply, idx_v64, ref_hRow]; rfl

/-- The new cell state as the [1, 1, 4096] result. -/
theorem ref_c : val_main_v65 (F := Ideal) x0 x2 x3 x6 x7 x8 x9 x10 x11 = cOut x0 x2 x3 x6 x7 x8 x9 x10 x11 := by
  funext i; rw [val_main_v65_apply, idx_v65, ref_cRow]; rfl

/-! ## The scalar gate and the two blends -/

theorem lidx_v45 (i : S1x1.Idx) (k : Fin 4096) : lidx_main_v45 i k = ix2 (r0 i) k := by
  funext a; match a with | ⟨0, _⟩ => rfl | ⟨1, _⟩ => rfl
theorem ridx_v45 (i : S1x1.Idx) (k : Fin 4096) : idx_main_v44 (ridx_main_v45 i k) = ix2 (r1 i) k := by
  funext a; match a with | ⟨0, _⟩ => rfl | ⟨1, _⟩ => rfl
/-- The one-entry bias broadcast to [1, 1] is read at its only entry. -/
theorem idx_v46 (i : S1x1.Idx) : idx_main_v46 i = ix1 (r1 i) := by
  funext a; apply Fin.ext
  match a with
  | ⟨0, _⟩ =>
    show 0 = (i 1).val
    have h1 : (i 1).val < 1 := idx2_lt1 i
    omega
theorem ref_row_b3 : val_main_v46 (F := Ideal) x13 = rowOf x13 := by
  funext i; rw [val_main_v46_apply, idx_v46]; rfl

/-- The scalar gate before blending: σ(h' · W3ᵀ + b3). -/
theorem ref_head : val_main_v53 (F := Ideal) x0 x2 x3 x6 x7 x8 x9 x10 x11 x12 x13
    = headGate (hRow x0 x2 x3 x6 x7 x8 x9 x10 x11) x12 (rowOf x13) := by
  funext i
  rw [val_main_v53_apply, val_main_v52_apply, val_main_cst_6_apply, val_main_v51_apply, val_main_v50_apply,
    val_main_cst_5_apply, val_main_v49_apply, val_main_v48_apply, logistic_ops, val_main_v47_apply,
    val_main_v45_apply, ref_hRow, ref_row_b3]
  simp only [val_main_v44_apply, lidx_v45, ridx_v45]
  rfl

/-- a = u · a_pre + (1 − u) · σ(h' · W3ᵀ + b3). -/
theorem ref_a : val_main_v58 (F := Ideal) x0 x1 x2 x3 x5 x6 x7 x8 x9 x10 x11 x12 x13
    = aOut x0 x1 x2 x3 x5 x6 x7 x8 x9 x10 x11 x12 x13 := by
  funext i
  rw [val_main_v58_apply, val_main_v54_apply, val_main_v57_apply, val_main_v56_apply, val_main_v55_apply,
    val_main_cst_7_apply, ref_head]
  rfl

/-- y = a · u + (1 − a) · y_pre. -/
theorem ref_y : val_main_v63 (F := Ideal) x0 x1 x2 x3 x4 x5 x6 x7 x8 x9 x10 x11 x12 x13
    = yOut x0 x1 x2 x3 x4 x5 x6 x7 x8 x9 x10 x11 x12 x13 := by
  funext i
  rw [val_main_v63_apply, val_main_v59_apply, val_main_v62_apply, val_main_v61_apply, val_main_v60_apply,
    val_main_cst_8_apply, ref_a]
  rfl

end Cert.Cell.Ref

end
-- ==== Proof.lean ====
/-
  The certificate's five claims.

  The kernel program computes, in three launches, one step of a recurrent cell on an input row: a rectified fully
  connected layer, the four gates' pre-activations, and the cell's nonlinearities with a scalar gate and two blends
  (Proof/CellSpec.lean states these as functions of the fourteen argument arrays over the extended reals). The
  reference program computes the same functions with whole-array operations. The two differ in three ways, none of
  which changes a value over the extended reals: the kernel computes the two matrix products tile by tile, 256 output
  columns at a time, where the reference takes one product (the same sums); the kernel adds the two gate biases to
  each other before adding them to the products, where the reference adds them one after the other (addition is
  commutative and associative at the infinities too, so no entry need be finite); and the kernel uses one logistic
  operation where the reference writes 1 / (1 + e^(−t)) (the operation's definition).

  Each launch's result is read off the kernel program's run as a function of the arrays the launch finds
  (Proof/Layer0.lean, Layer1.lean, Layer2.lean), the host operations around the launches as re-indexings
  (Proof/HostSide.lean), and the four results at the return follow (Proof/KernelValue.lean, over the run of
  Proof/KernelEnds.lean). The reference's four results are the same functions (Proof/RefCell.lean, over the
  reference's run read one operation at a time). Both programs leave their arguments unchanged, and the
  idealization rewrote no operation of the kernel, so the preservation claim asks nothing.
-/
import proofs.«175204_j88622355185707_2_alg».proof.Defs
import proofs.«175204_j88622355185707_2_alg».proof.Proof.Gen.Kernel
import proofs.«175204_j88622355185707_2_alg».proof.Proof.Gen.Kernel.Skeleton
import proofs.«175204_j88622355185707_2_alg».proof.Proof.Gen.Kernel.Launch
import proofs.«175204_j88622355185707_2_alg».proof.Proof.Gen.Kernel.Points
import proofs.«175204_j88622355185707_2_alg».proof.Proof.Gen.Kernel.Frame
import proofs.«175204_j88622355185707_2_alg».proof.Proof.Gen.KernelIdeal
import proofs.«175204_j88622355185707_2_alg».proof.Proof.Gen.KernelIdeal.Skeleton
import proofs.«175204_j88622355185707_2_alg».proof.Proof.Gen.KernelIdeal.Launch
import proofs.«175204_j88622355185707_2_alg».proof.Proof.Gen.KernelIdeal.Points
import proofs.«175204_j88622355185707_2_alg».proof.Proof.Gen.KernelIdeal.Frame
import proofs.«175204_j88622355185707_2_alg».proof.Proof.Gen.ReferenceIdeal
import proofs.«175204_j88622355185707_2_alg».proof.Proof.Gen.ReferenceIdeal.Run
import proofs.«175204_j88622355185707_2_alg».proof.Proof.Gen.ReferenceIdeal.Read
import proofs.«175204_j88622355185707_2_alg».proof.Proof.Gen.Pre_finite_inputs
import proofs.«175204_j88622355185707_2_alg».proof.Proof.KernelEnds
import proofs.«175204_j88622355185707_2_alg».proof.Proof.KernelValue
import proofs.«175204_j88622355185707_2_alg».proof.Proof.RefCell
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel :=
  fun m ρ _ => Cert.Kernel.Gen.frame m ρ

/-- The idealized kernel program runs and leaves its arguments unchanged. -/
theorem frame_kernelIdeal : Cert.frame_KernelIdeal :=
  fun m ρ _ => Cert.KernelIdeal.Gen.frame m ρ

/-- The reference program runs and leaves its arguments unchanged: its run with the results dropped. -/
theorem frame_referenceIdeal : Cert.frame_ReferenceIdeal :=
  fun m ρ _ => (θ_run Cert.ReferenceIdeal.defs _ _).mono (fun _ h c => (h c).2.2.2.2) (Cert.ReferenceIdeal.Value.run (F := Ideal) m ρ)

/-- The idealized kernel program, from any memory: it ends with y, h', c' and a of the specification at its
    arguments, and with the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8_2) = Cert.Cell.yOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v9) = Cert.Cell.hOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_v10) = Cert.Cell.cOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_v8_3) = Cert.Cell.aOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) := by
  refine (θ_run Cert.KernelIdeal.defs _ _).mono (fun r h c => ?_) (Cert.KernelIdeal.Ends.run_ends (F := Ideal) m ρ)
  exact ⟨(h c Cert.KernelIdeal.main_v8_2 (by decide)).trans (Cert.Cell.Kernel.W5_y m ρ c),
    (h c Cert.KernelIdeal.main_v9 (by decide)).trans (Cert.Cell.Kernel.W5_h m ρ c),
    (h c Cert.KernelIdeal.main_v10 (by decide)).trans (Cert.Cell.Kernel.W5_c m ρ c),
    (h c Cert.KernelIdeal.main_v8_3 (by decide)).trans (Cert.Cell.Kernel.W5_a m ρ c),
    (h c Cert.KernelIdeal.main_arg0 (by decide)).trans (Cert.KernelIdeal.Gen.W5_main_arg0 m ρ c),
    (h c Cert.KernelIdeal.main_arg1 (by decide)).trans (Cert.KernelIdeal.Gen.W5_main_arg1 m ρ c),
    (h c Cert.KernelIdeal.main_arg2 (by decide)).trans (Cert.KernelIdeal.Gen.W5_main_arg2 m ρ c),
    (h c Cert.KernelIdeal.main_arg3 (by decide)).trans (Cert.KernelIdeal.Gen.W5_main_arg3 m ρ c),
    (h c Cert.KernelIdeal.main_arg4 (by decide)).trans (Cert.KernelIdeal.Gen.W5_main_arg4 m ρ c),
    (h c Cert.KernelIdeal.main_arg5 (by decide)).trans (Cert.KernelIdeal.Gen.W5_main_arg5 m ρ c),
    (h c Cert.KernelIdeal.main_arg6 (by decide)).trans (Cert.KernelIdeal.Gen.W5_main_arg6 m ρ c),
    (h c Cert.KernelIdeal.main_arg7 (by decide)).trans (Cert.KernelIdeal.Gen.W5_main_arg7 m ρ c),
    (h c Cert.KernelIdeal.main_arg8 (by decide)).trans (Cert.KernelIdeal.Gen.W5_main_arg8 m ρ c),
    (h c Cert.KernelIdeal.main_arg9 (by decide)).trans (Cert.KernelIdeal.Gen.W5_main_arg9 m ρ c),
    (h c Cert.KernelIdeal.main_arg10 (by decide)).trans (Cert.KernelIdeal.Gen.W5_main_arg10 m ρ c),
    (h c Cert.KernelIdeal.main_arg11 (by decide)).trans (Cert.KernelIdeal.Gen.W5_main_arg11 m ρ c),
    (h c Cert.KernelIdeal.main_arg12 (by decide)).trans (Cert.KernelIdeal.Gen.W5_main_arg12 m ρ c),
    (h c Cert.KernelIdeal.main_arg13 (by decide)).trans (Cert.KernelIdeal.Gen.W5_main_arg13 m ρ c)⟩

/-- The idealized reference program, from any memory: it ends with the same four functions of its arguments, and
    with the arguments unchanged. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v63) = Cert.Cell.yOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v64) = Cert.Cell.hOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v65) = Cert.Cell.cOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v58) = Cert.Cell.aOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) := by
  refine (θ_run Cert.ReferenceIdeal.defs _ _).mono (fun r h c => ?_) (Cert.ReferenceIdeal.Value.run (F := Ideal) m ρ)
  refine ⟨(h c).1.trans ?_, (h c).2.1.trans ?_, (h c).2.2.1.trans ?_, (h c).2.2.2.1.trans ?_, (h c).2.2.2.2⟩
  · exact (Cert.ReferenceIdeal.Read.val_main_v63_eq m c).trans (Cert.Cell.Ref.ref_y ..)
  · exact (Cert.ReferenceIdeal.Read.val_main_v64_eq m c).trans (Cert.Cell.Ref.ref_h ..)
  · exact (Cert.ReferenceIdeal.Read.val_main_v65_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).trans (Cert.Cell.Ref.ref_c ..)
  · exact (Cert.ReferenceIdeal.Read.val_main_v58_eq m c).trans (Cert.Cell.Ref.ref_a ..)

/-- Over the extended reals, from memories that agree on the arguments, both programs run, end with equal results and
    leave their arguments unchanged: the two runs above, the reference's results rewritten at the kernel's arguments. -/
theorem algebraic : Cert.algebraic_KernelIdeal_ReferenceIdeal := by
  intro m ρ m' ρ' _ hagree
  refine ⟨_, _, _, _, kernel_run m ρ, ?_⟩
  refine (θ_run Cert.ReferenceIdeal.defs _ _).mono (fun r h c => ?_) (reference_run m' ρ')
  obtain ⟨a0, a1, a2, a3, a4, a5, a6, a7, a8, a9, a10, a11, a12, a13⟩ := hagree c
  refine ⟨(h c).1.trans ?_, (h c).2.1.trans ?_, (h c).2.2.1.trans ?_, (h c).2.2.2.1.trans ?_, (h c).2.2.2.2⟩
  · rw [a0, a1, a2, a3, a4, a5, a6, a7, a8, a9, a10, a11, a12, a13]
  · rw [a0, a2, a3, a6, a7, a8, a9, a10, a11]
  · rw [a0, a2, a3, a6, a7, a8, a9, a10, a11]
  · rw [a0, a1, a2, a3, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
